-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096x2 : Shape := ⟨3, ![4096, 4096, 2]⟩
abbrev S4096x150 : Shape := ⟨2, ![4096, 150]⟩
abbrev S_ : Shape := ⟨0, ![]⟩

class Facts : Prop where
  bcast_S_S4096x4096x2 : S_.BroadcastsInDim S4096x4096x2 (![] : Fin 0 → Fin S4096x4096x2.rank)
  reducesTo_S4096x4096x2_S_d0_1_2 : S4096x4096x2.ReducesTo [0, 1, 2] S_
  h_S_ : 0 < S_.numel
  bcast_S_S4096x150 : S_.BroadcastsInDim S4096x150 (![] : Fin 0 → Fin S4096x150.rank)
  reducesTo_S4096x150_S_d0_1 : S4096x150.ReducesTo [0, 1] S_

variable [Facts]

def fn {F : FTy → Type} [FloatOps F] (main_arg0 : FVec F S4096x4096x2 .f32) (main_arg1 : FVec F S4096x150 .f32) : IVec S_ 1 :=
  let main_v0 : FVec F S4096x4096x2 .f32 := Host.absf main_arg0
  let main_cst : FVec F S_ .f32 := constant S_ .f32 0x7F800000#32
  let main_v1 : FVec F S4096x4096x2 .f32 := broadcastInDim S4096x4096x2 ![] bcast_S_S4096x4096x2 main_cst
  let main_v2 : IVec S4096x4096x2 1 := cmpf .olt main_v0 main_v1
  let main_c : IVec S_ 1 := constantI S_ 1 1#1
  let main_v3 : IVec S_ 1 := (fun x v => Host.reduce IntOp.andi x v reducesTo_S4096x4096x2_S_d0_1_2 h_S_) main_v2 main_c
  let main_v4 : FVec F S4096x150 .f32 := Host.absf main_arg1
  let main_cst_0 : FVec F S_ .f32 := constant S_ .f32 0x7F800000#32
  let main_v5 : FVec F S4096x150 .f32 := broadcastInDim S4096x150 ![] bcast_S_S4096x150 main_cst_0
  let main_v6 : IVec S4096x150 1 := cmpf .olt main_v4 main_v5
  let main_c_1 : IVec S_ 1 := constantI S_ 1 1#1
  let main_v7 : IVec S_ 1 := (fun x v => Host.reduce IntOp.andi x v reducesTo_S4096x150_S_d0_1 h_S_) main_v6 main_c_1
  let main_v8 : IVec S_ 1 := andi main_v3 main_v7
  main_v8
-- ==== Kernel.lean ====
abbrev S4096x4096x2 : Shape := ⟨3, ![4096, 4096, 2]⟩
abbrev S4096x150 : Shape := ⟨2, ![4096, 150]⟩
abbrev S2x4096x4096 : Shape := ⟨3, ![2, 4096, 4096]⟩
abbrev S2x512x512 : Shape := ⟨3, ![2, 512, 512]⟩
abbrev S1x512x512 : Shape := ⟨3, ![1, 512, 512]⟩
abbrev S512x512 : Shape := ⟨2, ![512, 512]⟩
abbrev S512x150 : Shape := ⟨2, ![512, 150]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096x2, .f32⟩
  | .hbm, ⟨1, _⟩ => ⟨S4096x150, .f32⟩
  | .hbm, ⟨2, _⟩ => ⟨S2x4096x4096, .f32⟩
  | .hbm, ⟨3, _⟩ => ⟨S4096x150, .f32⟩
  | .hbm, ⟨4, _⟩ => ⟨S4096x150, .f32⟩
  | .local _ .vmem, ⟨0, _⟩ => ⟨S2x512x512, .f32⟩
  | .local _ .vmem, ⟨1, _⟩ => ⟨S2x512x512, .f32⟩
  | .local _ .vmem, ⟨2, _⟩ => ⟨S4096x150, .f32⟩
  | .local _ .vmem, ⟨3, _⟩ => ⟨S4096x150, .f32⟩
  | .local _ .vmem, ⟨4, _⟩ => ⟨S4096x150, .f32⟩
  | .local _ .vmem, ⟨5, _⟩ => ⟨S4096x150, .f32⟩
  | .local _ .vmem, ⟨6, _⟩ => ⟨S4096x150, .f32⟩
  | _, _ => ⟨S4096x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c512_i32 : BitVec 32 := 512#32
  let v11 : BitVec 32 := Scalar.muli arg0 c512_i32
  v11
def k0_mult2 (i : grid0.Coords) : BitVec 32 :=
  let arg1 : BitVec 32 := BitVec.ofNat 32 (i 1).val
  let c512_i32_6 : BitVec 32 := 512#32
  let v13 : BitVec 32 := Scalar.muli arg1 c512_i32_6
  v13
def k0_off1 (i : grid0.Coords) : Fin 2 → Nat :=
  let arg0 : BitVec 32 := BitVec.ofNat 32 (i 0).val
  let c512_i32 : BitVec 32 := 512#32
  let v11 : BitVec 32 := Scalar.muli arg0 c512_i32
  let v12 : BitVec 32 := v11
  let v15 : Index := Scalar.indexCast v12
  let c0_7 : Index := 0#32
  ![v15.toNat, 0]
def k0_off2 (i : grid0.Coords) : Fin 2 → Nat :=
  let arg1 : BitVec 32 := BitVec.ofNat 32 (i 1).val
  let c512_i32_6 : BitVec 32 := 512#32
  let v13 : BitVec 32 := Scalar.muli arg1 c512_i32_6
  let v14 : BitVec 32 := v13
  let v18 : Index := Scalar.indexCast v14
  let c0_8 : Index := 0#32
  ![v18.toNat, 0]
def k0_cond2 (i : grid0.Coords) : BitVec 1 :=
  let arg0 : BitVec 32 := BitVec.ofNat 32 (i 0).val
  let c7_i32 : BitVec 32 := 7#32
  let v37 : BitVec 1 := Scalar.cmpi .eq arg0 c7_i32
  let arg1 : BitVec 32 := BitVec.ofNat 32 (i 1).val
  let c7_i32_14 : BitVec 32 := 7#32
  let v38 : BitVec 1 := Scalar.cmpi .eq arg1 c7_i32_14
  let v39 : BitVec 1 := Scalar.andi v37 v38
  let v40 : BitVec 32 := Scalar.extui v39
  let c0_i32_15 : BitVec 32 := 0#32
  let v41 : BitVec 1 := Scalar.cmpi .ne v40 c0_i32_15
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x150 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x150 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096x150 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  transposes_S4096x4096x2_S2x4096x4096_2_0_1 : S4096x4096x2.Transposes [2, 0, 1] S2x4096x4096
  inb_S4096x150_S4096x150_0_0 : ∀ a, (![0, 0] : Fin 2 → Nat) a + S4096x150.size a ≤ S4096x150.size a
  h_S4096x150 : 0 < S4096x150.numel
  shapeCasts_S4096x150_S4096x150 : S4096x150.ShapeCasts S4096x150
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  inb_S2x512x512_S1x512x512_1_0_0 : ∀ a, (![1, 0, 0] : Fin 3 → Nat) a + S1x512x512.size a ≤ S2x512x512.size a
  bitsLt_bf16_f32 : FTy.bits .bf16 < FTy.bits .f32
  h_S512x150 : 0 < S512x150.numel
  shapeCasts_S512x150_S512x150 : S512x150.ShapeCasts S512x150
  dot_S512x512_S512x150_S512x150_1_0_0_1_n_n_wf : DotDims.WF S512x512 S512x150 S512x150 [1] [0] [0] [1] [] []
  dot_S512x512_S512x150_S512x150_0_0_1_1_n_n_wf : DotDims.WF S512x512 S512x150 S512x150 [0] [0] [1] [1] [] []
  hrank0 : 0 < grid0.rank
  k0_mult1_dvd : ∀ i : grid0.Coords, 512 ∣ (k0_mult1 i).toNat
  k0_mult2_dvd : ∀ i : grid0.Coords, 512 ∣ (k0_mult2 i).toNat
  k0_off1_inb : ∀ i : grid0.Coords, ∀ a, (k0_off1 i) a + S512x150.size a ≤ S4096x150.size a
  k0_off2_inb : ∀ i : grid0.Coords, ∀ a, (k0_off2 i) a + S512x150.size a ≤ S4096x150.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S2x4096x4096.size a
  hwx0_0 : ∀ i : grid0.Coords, EltTy.bits .f32 = 32 ∨ (Rect.block (s := S2x4096x4096) S2x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x150.size a ≤ S4096x150.size a
  hwx0_1 : ∀ i : grid0.Coords, EltTy.bits .f32 = 32 ∨ (Rect.block (s := S4096x150) S4096x150.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x150.size a ≤ S4096x150.size a
  hwx0_2 : ∀ i : grid0.Coords, EltTy.bits .f32 = 32 ∨ (Rect.block (s := S4096x150) S4096x150.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x150.size a ≤ S4096x150.size a
  hwx0_3 : ∀ i : grid0.Coords, EltTy.bits .f32 = 32 ∨ (Rect.block (s := S4096x150) S4096x150.size (cc0_transform_3 i) (hinb0_3 i)).WholeWords (EltTy.packing .f32)

variable [Facts₀]

def dot_S512x512_S512x150_S512x150_1_0_0_1_n_n : DotDims S512x512 S512x150 S512x150 where
  lhsContracting := [1]
  rhsContracting := [0]
  lhsNonContracting := [0]
  rhsNonContracting := [1]
  lhsBatch := []
  rhsBatch := []
  wf := dot_S512x512_S512x150_S512x150_1_0_0_1_n_n_wf
def dot_S512x512_S512x150_S512x150_0_0_1_1_n_n : DotDims S512x512 S512x150 S512x150 where
  lhsContracting := [0]
  rhsContracting := [0]
  lhsNonContracting := [1]
  rhsNonContracting := [1]
  lhsBatch := []
  rhsBatch := []
  wf := dot_S512x512_S512x150_S512x150_0_0_1_1_n_n_wf

abbrev win0_0 : Pipeline.Window sig grid0 :=
  Pipeline.Window.ofSpec (Memref.whole main_v0) S2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x150.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S4096x150.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S4096x150.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096x2 : Shape := ⟨3, ![4096, 4096, 2]⟩
abbrev S4096x150 : Shape := ⟨2, ![4096, 150]⟩
abbrev S_ : Shape := ⟨0, ![]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096x2, .f32⟩
  | .hbm, ⟨1, _⟩ => ⟨S4096x150, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x150, .f32⟩
  | .hbm, ⟨6, _⟩ => ⟨S4096x150, .f32⟩
  | _, _ => ⟨S4096x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S4096x4096x2_S4096x4096_d2 : S4096x4096x2.ReducesTo [2] S4096x4096
  h_S_ : 0 < S_.numel
  transposes_S4096x4096_S4096x4096_1_0 : S4096x4096.Transposes [1, 0] S4096x4096
  dot_S4096x4096_S4096x150_S4096x150_1_0_0_1_n_n_wf : DotDims.WF S4096x4096 S4096x150 S4096x150 [1] [0] [0] [1] [] []

variable [Facts₀]

def dot_S4096x4096_S4096x150_S4096x150_1_0_0_1_n_n : DotDims S4096x4096 S4096x150 S4096x150 where
  lhsContracting := [1]
  rhsContracting := [0]
  lhsNonContracting := [0]
  rhsNonContracting := [1]
  lhsBatch := []
  rhsBatch := []
  wf := dot_S4096x4096_S4096x150_S4096x150_1_0_0_1_n_n_wf

class Facts : Prop extends Facts₀ where

variable [Facts]
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibDotLT.lean ====
/-
  A matrix product with the left operand transposed, read at an entry.

  For a product of a [K, M] array with a [K, N] array that contracts the FIRST axis of both (dimension numbers
  [0], [0], [1], [1], no batch axis) into a zero accumulator, the (p, q) entry over the extended reals is
  Σ_k l (k, p) · r (k, q). The statement takes the two facts about the dimension record that are decided by
  unfolding it at a concrete record (the operands' trailing coordinates follow the result's), so that it serves
  every extent.
-/
import Idealize.ShloMosaic.PureOps.Ideal
import Idealize.ShloMosaic.PureOps.Ideal.Laws
import Idealize.ShloMosaic.Lib.ValueIdx

noncomputable section

open scoped BigOperators

namespace Cert.LibDotLT

open Idealize.ShloMosaic Idealize.ShloMosaic.ValueIdx

/-- The (p, q) entry of `lᵀ · r` accumulated from zero is the sum over the shared first axis. -/
theorem matmulLT_zero_apply {M N K : Nat} {φ₁ φ₂ : FTy}
    (d : DotDims ⟨2, ![K, M]⟩ ⟨2, ![K, N]⟩ ⟨2, ![M, N]⟩)
    (hl : d.lhsContracting = [0]) (hr : d.rhsContracting = [0])
    (hrank : d.contr.rank = 1) (hsize : d.contr.size ⟨0, by omega⟩ = K)
    (hl1 : ∀ j k, (d.lhsIdx j k 1).val = (j 0).val) (hr1 : ∀ j k, (d.rhsIdx j k 1).val = (j 1).val)
    (prec : Option ContractPrecision)
    (l : FVec Ideal ⟨2, ![K, M]⟩ φ₁) (r : FVec Ideal ⟨2, ![K, N]⟩ φ₂) (p : Fin M) (q : Fin N) :
    matmul d prec l r (constant (F := Ideal) ⟨2, ![M, N]⟩ .f32 0x00000000#32) (ix2 p q)
      = ∑ k : Fin K, l (ix2 k p) * r (ix2 k q) := by
  refine (Ideal.matmul_constant_zero_apply d prec l r (ix2 p q)).trans ?_
  rw [← Equiv.sum_comp (contrEquiv1 d K hrank hsize).symm]
  refine Finset.sum_congr rfl fun k _ => ?_
  have e1 : d.lhsIdx (ix2 p q) ((contrEquiv1 d K hrank hsize).symm k) = ix2 k p := by
    funext a; apply Fin.ext
    match a with
    | ⟨0, _⟩ => exact (d.lhsIdx_val_of_single hl _ _).trans (contrEquiv1_symm_val d K hrank hsize k)
    | ⟨1, _⟩ => exact hl1 _ _
  have e2 : d.rhsIdx (ix2 p q) ((contrEquiv1 d K hrank hsize).symm k) = ix2 k q := by
    funext a; apply Fin.ext
    match a with
    | ⟨0, _⟩ => exact (d.rhsIdx_val_of_single hr _ _).trans (contrEquiv1_symm_val d K hrank hsize k)
    | ⟨1, _⟩ => exact hr1 _ _
  rw [e1, e2]

end Cert.LibDotLT

end
-- ==== Proof.Payload.lean ====
/-
  The arithmetic of one visit, read at an entry over the extended reals.

  A visit holds the two edge-type slabs of a 512 × 512 tile of pairs, two stretches of 512 rows of the feature matrix, and
  the rows of the two running aggregates that it updates. The tile's weight at (p, k) is the sum of the two slabs'
  entries there. The outgoing update is the old entry plus the product of the tile with the column stretch's features,
  ∑ over k of tile (p, k) · h (k, q); the incoming update is the old entry plus the product of the transposed tile with the
  row stretch's features, ∑ over k of tile (k, p) · h (k, q). A change of float format is the identity on extended reals.
-/
import proofs.«125224_j58471684767747_2_alg».proof.Proof.Gen.KernelIdeal.Skeleton
import proofs.«125224_j58471684767747_2_alg».proof.Proof.LibPlainDot
import proofs.«125224_j58471684767747_2_alg».proof.Proof.LibDotLT
import Idealize.ShloMosaic.Lib.ValueLayout
import Idealize.ShloMosaic.Lib.Pipeline.Value
import Idealize.ShloMosaic.PureOps.Ideal.Laws

noncomputable section

open scoped BigOperators

namespace Cert.Aggregation.Body

open Cert.KernelIdeal Cert.KernelIdeal.Gen Idealize.ShloMosaic Idealize.ShloMosaic.ValueIdx

/-- The tile's weight at (p, k): the two slabs' entries added. -/
theorem tile_apply (v5 v7 : FVec Ideal S1x512x512 .f32) (p k : Fin 512) :
    k0_pay3 (F := Ideal) v5 v7 (ix2 p k) = v5 (ix3 (0 : Fin 1) p k) + v7 (ix3 (0 : Fin 1) p k) :=
  congrArg₂ (· + ·) (shapeCast_1ab_ab_apply v5 shapeCasts_S1x512x512_S512x512 p k)
    (shapeCast_1ab_ab_apply v7 shapeCasts_S1x512x512_S512x512 p k)

/-- The outgoing update at (p, q): the old entry plus the tile's row p against column q of the column stretch's features. -/
theorem outgoing_update_apply (v5 v7 : FVec Ideal S1x512x512 .f32) (v19 v23 : FVec Ideal S512x150 .f32)
    (p : Fin 512) (q : Fin 150) :
    k0_pay4 (F := Ideal) v5 v7 v19 v23 (ix2 p q)
      = v23 (ix2 p q) + ∑ k : Fin 512, (v5 (ix3 (0 : Fin 1) p k) + v7 (ix3 (0 : Fin 1) p k)) * v19 (ix2 k q) := by
  have hm := Cert.LibPlainDot.matmul_plain_apply dot_S512x512_S512x150_S512x150_1_0_0_1_n_n rfl rfl rfl rfl rfl rfl none
      (k0_pay3 (F := Ideal) v5 v7) (truncf .bf16 v19 bitsLt_bf16_f32) p q
  unfold k0_pay4
  rw [shapeCast_self]
  refine (congrArg (v23 (ix2 p q) + ·) hm).trans ?_
  refine congrArg (v23 (ix2 p q) + ·) (Finset.sum_congr rfl fun k _ => ?_)
  rw [tile_apply]
  rfl

/-- The record of the transposed product contracts one axis, of extent 512. -/
theorem contr_rank : dot_S512x512_S512x150_S512x150_0_0_1_1_n_n.contr.rank = 1 := by
  rw [DotDims.rank_contr]; rfl

theorem contr_size : dot_S512x512_S512x150_S512x150_0_0_1_1_n_n.contr.size ⟨0, by rw [contr_rank]; exact Nat.one_pos⟩ = 512 := by
  rw [DotDims.size_contr _ 0 (by exact Nat.one_pos)]
  rfl

/-- The incoming update at (p, q): the old entry plus the tile's column p against column q of the row stretch's features. -/
theorem incoming_update_apply (v5 v7 : FVec Ideal S1x512x512 .f32) (v16 v31 : FVec Ideal S512x150 .f32)
    (p : Fin 512) (q : Fin 150) :
    k0_pay5 (F := Ideal) v5 v7 v16 v31 (ix2 p q)
      = v31 (ix2 p q) + ∑ k : Fin 512, (v5 (ix3 (0 : Fin 1) k p) + v7 (ix3 (0 : Fin 1) k p)) * v16 (ix2 k q) := by
  have hm := Cert.LibDotLT.matmulLT_zero_apply dot_S512x512_S512x150_S512x150_0_0_1_1_n_n rfl rfl contr_rank contr_size
      (fun _ _ => rfl) (fun _ _ => rfl) none
      (k0_pay3 (F := Ideal) v5 v7) (truncf .bf16 v16 bitsLt_bf16_f32) p q
  unfold k0_pay5
  rw [shapeCast_self]
  refine (congrArg (v31 (ix2 p q) + ·) hm).trans ?_
  refine congrArg (v31 (ix2 p q) + ·) (Finset.sum_congr rfl fun k _ => ?_)
  rw [tile_apply]
  rfl

end Cert.Aggregation.Body

end
-- ==== Proof.Visit.lean ====
/-
  One visit, read off the stores it makes.

  A visit of the pair of stretches with row offset o₁ and column offset o₂ stores 512 rows into each running aggregate:
  rows [o₁, o₁ + 512) of the outgoing aggregate, each entry the old one plus the tile's row against the features of
  the nodes o₂ + k; rows [o₂, o₂ + 512) of the incoming aggregate, each entry the old one plus the tile's column
  against the features of the nodes o₁ + k. Every other row keeps what it held. The first visit first fills both
  aggregates with zeros, so there "the old entry" is zero; the last visit also copies both aggregates, after its
  update, whole into the two results.
-/
import proofs.«125224_j58471684767747_2_alg».proof.Proof.Gen.KernelIdeal.Frame
import proofs.«125224_j58471684767747_2_alg».proof.Proof.Payload
import Idealize.ShloMosaic.Lib.Pipeline.Value
import Idealize.ShloMosaic.Lib.WritesUnit
import Idealize.ShloMosaic.Lib.WholeRead
import Idealize.ShloMosaic.Lib.Tactic

noncomputable section

open scoped BigOperators

namespace Cert.Aggregation.Visit

open Cert.KernelIdeal Cert.KernelIdeal.Gen Idealize.ShloMosaic Idealize.ShloMosaic.TcCoe Idealize.ShloMosaic.Tactic
open Idealize.ShloMosaic.ValueIdx Idealize.SL.Sem Cert.Aggregation.Body

/-- The row stretch's stores and loads start at column 0. -/
theorem rowOff_eq (i : grid0.Coords) : k0_off1 i = ![k0_off1 i 0, 0] :=
  funext fun a => match a with | ⟨0, _⟩ => rfl | ⟨1, _⟩ => rfl

/-- The column stretch's stores and loads start at column 0. -/
theorem colOff_eq (i : grid0.Coords) : k0_off2 i = ![k0_off2 i 0, 0] :=
  funext fun a => match a with | ⟨0, _⟩ => rfl | ⟨1, _⟩ => rfl

/-- 512 rows loaded from row `off 0` of a whole buffer holding `X`: entry (p, d) is `X` at row `off 0 + p`. -/
theorem load_rows {m : Memref sig .tc .vmem S4096x150 .f32} (hm : m.IsWhole) (X : Vec Ideal S4096x150 .f32)
    (off : Fin 2 → ℕ) (inb : ∀ a, off a + S512x150.size a ≤ S4096x150.size a) (hoff : off 1 = 0)
    (p : Fin 512) (d : Fin 150) (r : Fin 4096) (hr : r.val = off 0 + p.val) :
    View.readAt (Elt Ideal) m.view (Rect.unit (s := S4096x150) off S512x150.size inb).toLoadRect (hm.unread X) (ix2 p d)
      = X (ix2 r d) := by
  refine (hm.readAt_unread X _ _).trans (congrArg X (funext fun a => Fin.ext ?_))
  match a with
  | ⟨0, _⟩ => show off 0 + 1 * p.val = r.val; omega
  | ⟨1, _⟩ => show off 1 + 1 * d.val = d.val; omega

/-- A buffer just filled by one whole store reads that store's payload. -/
theorem filled (v : View sig .tc .vmem S4096x150 .f32) (f : v.ty.Contents (Elt Ideal)) (w : Vec Ideal S4096x150 .f32)
    (y : S4096x150.Idx) :
    v.read (Elt Ideal) (v.writes (Elt Ideal) f
      [⟨Rect.unit (s := S4096x150) ![0, 0] S4096x150.size inb_S4096x150_S4096x150_0_0, w⟩]) y = w y :=
  View.read_writes_cons_rows_of_mem v f inb_S4096x150_S4096x150_0_0 w [] y y rfl (Nat.zero_add _).symm rfl

/-- The first visit's fill of the incoming aggregate is zero everywhere … -/
theorem fill0_zero (y : S4096x150.Idx) : k0_pay1 (F := Ideal) y = 0 := by
  unfold k0_pay1
  rw [shapeCast_self]
  exact Ideal.ofBits_zero_f32

/-- … and so is its fill of the outgoing aggregate. -/
theorem fill1_zero (y : S4096x150.Idx) : k0_pay2 (F := Ideal) y = 0 := by
  unfold k0_pay2
  rw [shapeCast_self]
  exact Ideal.ofBits_zero_f32

section
variable (c : Dev nD) (i : grid0.Coords) (arg2 : Memref sig .tc .vmem S2x512x512 .f32) (harg2 : arg2.IsWhole) (arg3 : Memref sig .tc .vmem S4096x150 .f32) (harg3 : arg3.IsWhole) (arg4 : Memref sig .tc .vmem S4096x150 .f32) (harg4 : arg4.IsWhole) (arg5 : Memref sig .tc .vmem S4096x150 .f32) (harg5 : arg5.IsWhole) (arg6 : Memref sig .tc .vmem S4096x150 .f32) (harg6 : arg6.IsWhole) (arg7 : Memref sig .tc .vmem S4096x150 .f32) (harg7 : arg7.IsWhole)
  (x0 : Vec Ideal S2x512x512 .f32) (x1 : Vec Ideal S4096x150 .f32)

/-- The first slab of the tile, as loaded. -/
theorem slab0 (p k : Fin 512) :
    View.readAt (Elt Ideal) arg2.view (Rect.unit (s := S2x512x512) ![0, 0, 0] S1x512x512.size inb_S2x512x512_S1x512x512_0_0_0).toLoadRect
      (harg2.unread x0) (ix3 (0 : Fin 1) p k) = x0 (ix3 (0 : Fin 2) p k) := by
  refine (harg2.readAt_unread x0 _ _).trans (congrArg x0 (funext fun a => Fin.ext ?_))
  match a with
  | ⟨0, _⟩ => rfl
  | ⟨1, _⟩ => show 0 + 1 * p.val = p.val; omega
  | ⟨2, _⟩ => show 0 + 1 * k.val = k.val; omega

/-- The second slab of the tile, as loaded. -/
theorem slab1 (p k : Fin 512) :
    View.readAt (Elt Ideal) arg2.view (Rect.unit (s := S2x512x512) ![1, 0, 0] S1x512x512.size inb_S2x512x512_S1x512x512_1_0_0).toLoadRect
      (harg2.unread x0) (ix3 (0 : Fin 1) p k) = x0 (ix3 (1 : Fin 2) p k) := by
  refine (harg2.readAt_unread x0 _ _).trans (congrArg x0 (funext fun a => Fin.ext ?_))
  match a with
  | ⟨0, _⟩ => rfl
  | ⟨1, _⟩ => show 0 + 1 * p.val = p.val; omega
  | ⟨2, _⟩ => show 0 + 1 * k.val = k.val; omega

/-- The outgoing update on a visit's loads: the old entry plus the tile's row `p` against the features of the nodes
    `cn k` of the column stretch. -/
theorem outgoing_payload (acc : FVec Ideal S512x150 .f32) (p : Fin 512) (d : Fin 150)
    (cn : Fin 512 → Fin 4096) (hcn : ∀ k, (cn k).val = k0_off2 i 0 + k.val) :
    k0_pay4 (F := Ideal)
        (View.readAt (Elt Ideal) arg2.view (Rect.unit (s := S2x512x512) ![0, 0, 0] S1x512x512.size inb_S2x512x512_S1x512x512_0_0_0).toLoadRect (harg2.unread x0))
        (View.readAt (Elt Ideal) arg2.view (Rect.unit (s := S2x512x512) ![1, 0, 0] S1x512x512.size inb_S2x512x512_S1x512x512_1_0_0).toLoadRect (harg2.unread x0))
        (View.readAt (Elt Ideal) arg3.view (Rect.unit (s := S4096x150) (k0_off2 i) S512x150.size (k0_off2_inb i)).toLoadRect (harg3.unread x1))
        acc (ix2 p d)
      = acc (ix2 p d) + ∑ k : Fin 512, (x0 (ix3 (0 : Fin 2) p k) + x0 (ix3 (1 : Fin 2) p k)) * x1 (ix2 (cn k) d) := by
  refine (outgoing_update_apply _ _ _ acc p d).trans (congrArg (acc (ix2 p d) + ·) (Finset.sum_congr rfl fun k _ => ?_))
  rw [slab0 arg2 harg2 x0 p k, slab1 arg2 harg2 x0 p k,
    load_rows harg3 x1 (k0_off2 i) (k0_off2_inb i) rfl k d (cn k) (hcn k)]

/-- The incoming update on a visit's loads: the old entry plus the tile's column `p` against the features of the
    nodes `rn k` of the row stretch. -/
theorem incoming_payload (acc : FVec Ideal S512x150 .f32) (p : Fin 512) (d : Fin 150)
    (rn : Fin 512 → Fin 4096) (hrn : ∀ k, (rn k).val = k0_off1 i 0 + k.val) :
    k0_pay5 (F := Ideal)
        (View.readAt (Elt Ideal) arg2.view (Rect.unit (s := S2x512x512) ![0, 0, 0] S1x512x512.size inb_S2x512x512_S1x512x512_0_0_0).toLoadRect (harg2.unread x0))
        (View.readAt (Elt Ideal) arg2.view (Rect.unit (s := S2x512x512) ![1, 0, 0] S1x512x512.size inb_S2x512x512_S1x512x512_1_0_0).toLoadRect (harg2.unread x0))
        (View.readAt (Elt Ideal) arg3.view (Rect.unit (s := S4096x150) (k0_off1 i) S512x150.size (k0_off1_inb i)).toLoadRect (harg3.unread x1))
        acc (ix2 p d)
      = acc (ix2 p d) + ∑ k : Fin 512, (x0 (ix3 (0 : Fin 2) k p) + x0 (ix3 (1 : Fin 2) k p)) * x1 (ix2 (rn k) d) := by
  refine (incoming_update_apply _ _ _ acc p d).trans (congrArg (acc (ix2 p d) + ·) (Finset.sum_congr rfl fun k _ => ?_))
  rw [slab0 arg2 harg2 x0 k p, slab1 arg2 harg2 x0 k p,
    load_rows harg3 x1 (k0_off1 i) (k0_off1_inb i) rfl k d (rn k) (hrn k)]

/-! ## Case B: a visit that finds the aggregates as the visit before left them -/

/-- A node of the visited row stretch: its outgoing entry grows by the column stretch's part. -/
theorem outgoing_B_hit (hc0 : ¬cond0_0 i) (hc1 : ¬cond0_1 i) (xs0 xs1 : Vec Ideal S4096x150 .f32)
    (r : Fin 4096) (d : Fin 150) (p : Fin 512) (hp : r.val = k0_off1 i 0 + p.val)
    (cn : Fin 512 → Fin 4096) (hcn : ∀ k, (cn k).val = k0_off2 i 0 + k.val) :
    sout0_B_1 (F := Ideal) c i arg2 harg2 arg3 harg3 arg4 harg4 arg5 harg5 arg6 harg6 arg7 harg7 hc0 hc1 x0 x1 xs0 xs1 (ix2 r d)
      = xs1 (ix2 r d) + ∑ k : Fin 512, (x0 (ix3 (0 : Fin 2) p k) + x0 (ix3 (1 : Fin 2) p k)) * x1 (ix2 (cn k) d) := by
  unfold sout0_B_1 kernelRun0_B
  dsimp only
  sl_unfold_run_names
  refine (View.read_writes_cons_rows_of_mem arg7.view (harg7.unread xs1) (k0_off1_inb i) _ [] (ix2 r d) (ix2 p d)
    (rowOff_eq i) hp rfl).trans ?_
  refine (outgoing_payload i arg2 harg2 arg3 harg3 x0 x1 _ p d cn hcn).trans ?_
  exact congrArg (· + _) (load_rows harg7 xs1 (k0_off1 i) (k0_off1_inb i) rfl p d r hp)

/-- A node outside the visited row stretch keeps its outgoing entry. -/
theorem outgoing_B_miss (hc0 : ¬cond0_0 i) (hc1 : ¬cond0_1 i) (xs0 xs1 : Vec Ideal S4096x150 .f32)
    (r : Fin 4096) (d : Fin 150) (hr : r.val < k0_off1 i 0 ∨ k0_off1 i 0 + 512 ≤ r.val) :
    sout0_B_1 (F := Ideal) c i arg2 harg2 arg3 harg3 arg4 harg4 arg5 harg5 arg6 harg6 arg7 harg7 hc0 hc1 x0 x1 xs0 xs1 (ix2 r d) = xs1 (ix2 r d) := by
  unfold sout0_B_1 kernelRun0_B
  dsimp only
  sl_unfold_run_names
  refine (View.read_writes_cons_rows_of_not_mem arg7.view (harg7.unread xs1) (k0_off1_inb i) _ [] (ix2 r d)
    (rowOff_eq i) rfl hr).trans ?_
  exact congrFun (harg7.read_unread xs1) (ix2 r d)

/-- A node of the visited column stretch: its incoming entry grows by the row stretch's part. -/
theorem incoming_B_hit (hc0 : ¬cond0_0 i) (hc1 : ¬cond0_1 i) (xs0 xs1 : Vec Ideal S4096x150 .f32)
    (cc : Fin 4096) (d : Fin 150) (p : Fin 512) (hp : cc.val = k0_off2 i 0 + p.val)
    (rn : Fin 512 → Fin 4096) (hrn : ∀ k, (rn k).val = k0_off1 i 0 + k.val) :
    sout0_B_0 (F := Ideal) c i arg2 harg2 arg3 harg3 arg4 harg4 arg5 harg5 arg6 harg6 arg7 harg7 hc0 hc1 x0 x1 xs0 xs1 (ix2 cc d)
      = xs0 (ix2 cc d) + ∑ k : Fin 512, (x0 (ix3 (0 : Fin 2) k p) + x0 (ix3 (1 : Fin 2) k p)) * x1 (ix2 (rn k) d) := by
  unfold sout0_B_0 kernelRun0_B
  dsimp only
  sl_unfold_run_names
  refine (View.read_writes_cons_rows_of_mem arg6.view (harg6.unread xs0) (k0_off2_inb i) _ [] (ix2 cc d) (ix2 p d)
    (colOff_eq i) hp rfl).trans ?_
  refine (incoming_payload i arg2 harg2 arg3 harg3 x0 x1 _ p d rn hrn).trans ?_
  exact congrArg (· + _) (load_rows harg6 xs0 (k0_off2 i) (k0_off2_inb i) rfl p d cc hp)

/-- A node outside the visited column stretch keeps its incoming entry. -/
theorem incoming_B_miss (hc0 : ¬cond0_0 i) (hc1 : ¬cond0_1 i) (xs0 xs1 : Vec Ideal S4096x150 .f32)
    (cc : Fin 4096) (d : Fin 150) (hcc : cc.val < k0_off2 i 0 ∨ k0_off2 i 0 + 512 ≤ cc.val) :
    sout0_B_0 (F := Ideal) c i arg2 harg2 arg3 harg3 arg4 harg4 arg5 harg5 arg6 harg6 arg7 harg7 hc0 hc1 x0 x1 xs0 xs1 (ix2 cc d) = xs0 (ix2 cc d) := by
  unfold sout0_B_0 kernelRun0_B
  dsimp only
  sl_unfold_run_names
  refine (View.read_writes_cons_rows_of_not_mem arg6.view (harg6.unread xs0) (k0_off2_inb i) _ [] (ix2 cc d)
    (colOff_eq i) rfl hcc).trans ?_
  exact congrFun (harg6.read_unread xs0) (ix2 cc d)

/-! ## Case C: a visit that finds the aggregates as the visit before left them -/

/-- A node of the visited row stretch: its outgoing entry grows by the column stretch's part. -/
theorem outgoing_C_hit (hc0 : ¬cond0_0 i) (hc1 : cond0_1 i) (xs0 xs1 : Vec Ideal S4096x150 .f32)
    (r : Fin 4096) (d : Fin 150) (p : Fin 512) (hp : r.val = k0_off1 i 0 + p.val)
    (cn : Fin 512 → Fin 4096) (hcn : ∀ k, (cn k).val = k0_off2 i 0 + k.val) :
    sout0_C_1 (F := Ideal) c i arg2 harg2 arg3 harg3 arg4 harg4 arg5 harg5 arg6 harg6 arg7 harg7 hc0 hc1 x0 x1 xs0 xs1 (ix2 r d)
      = xs1 (ix2 r d) + ∑ k : Fin 512, (x0 (ix3 (0 : Fin 2) p k) + x0 (ix3 (1 : Fin 2) p k)) * x1 (ix2 (cn k) d) := by
  unfold sout0_C_1 kernelRun0_C
  dsimp only
  sl_unfold_run_names
  refine (View.read_writes_cons_rows_of_mem arg7.view (harg7.unread xs1) (k0_off1_inb i) _ [] (ix2 r d) (ix2 p d)
    (rowOff_eq i) hp rfl).trans ?_
  refine (outgoing_payload i arg2 harg2 arg3 harg3 x0 x1 _ p d cn hcn).trans ?_
  exact congrArg (· + _) (load_rows harg7 xs1 (k0_off1 i) (k0_off1_inb i) rfl p d r hp)

/-- A node outside the visited row stretch keeps its outgoing entry. -/
theorem outgoing_C_miss (hc0 : ¬cond0_0 i) (hc1 : cond0_1 i) (xs0 xs1 : Vec Ideal S4096x150 .f32)
    (r : Fin 4096) (d : Fin 150) (hr : r.val < k0_off1 i 0 ∨ k0_off1 i 0 + 512 ≤ r.val) :
    sout0_C_1 (F := Ideal) c i arg2 harg2 arg3 harg3 arg4 harg4 arg5 harg5 arg6 harg6 arg7 harg7 hc0 hc1 x0 x1 xs0 xs1 (ix2 r d) = xs1 (ix2 r d) := by
  unfold sout0_C_1 kernelRun0_C
  dsimp only
  sl_unfold_run_names
  refine (View.read_writes_cons_rows_of_not_mem arg7.view (harg7.unread xs1) (k0_off1_inb i) _ [] (ix2 r d)
    (rowOff_eq i) rfl hr).trans ?_
  exact congrFun (harg7.read_unread xs1) (ix2 r d)

/-- A node of the visited column stretch: its incoming entry grows by the row stretch's part. -/
theorem incoming_C_hit (hc0 : ¬cond0_0 i) (hc1 : cond0_1 i) (xs0 xs1 : Vec Ideal S4096x150 .f32)
    (cc : Fin 4096) (d : Fin 150) (p : Fin 512) (hp : cc.val = k0_off2 i 0 + p.val)
    (rn : Fin 512 → Fin 4096) (hrn : ∀ k, (rn k).val = k0_off1 i 0 + k.val) :
    sout0_C_0 (F := Ideal) c i arg2 harg2 arg3 harg3 arg4 harg4 arg5 harg5 arg6 harg6 arg7 harg7 hc0 hc1 x0 x1 xs0 xs1 (ix2 cc d)
      = xs0 (ix2 cc d) + ∑ k : Fin 512, (x0 (ix3 (0 : Fin 2) k p) + x0 (ix3 (1 : Fin 2) k p)) * x1 (ix2 (rn k) d) := by
  unfold sout0_C_0 kernelRun0_C
  dsimp only
  sl_unfold_run_names
  refine (View.read_writes_cons_rows_of_mem arg6.view (harg6.unread xs0) (k0_off2_inb i) _ [] (ix2 cc d) (ix2 p d)
    (colOff_eq i) hp rfl).trans ?_
  refine (incoming_payload i arg2 harg2 arg3 harg3 x0 x1 _ p d rn hrn).trans ?_
  exact congrArg (· + _) (load_rows harg6 xs0 (k0_off2 i) (k0_off2_inb i) rfl p d cc hp)

/-- A node outside the visited column stretch keeps its incoming entry. -/
theorem incoming_C_miss (hc0 : ¬cond0_0 i) (hc1 : cond0_1 i) (xs0 xs1 : Vec Ideal S4096x150 .f32)
    (cc : Fin 4096) (d : Fin 150) (hcc : cc.val < k0_off2 i 0 ∨ k0_off2 i 0 + 512 ≤ cc.val) :
    sout0_C_0 (F := Ideal) c i arg2 harg2 arg3 harg3 arg4 harg4 arg5 harg5 arg6 harg6 arg7 harg7 hc0 hc1 x0 x1 xs0 xs1 (ix2 cc d) = xs0 (ix2 cc d) := by
  unfold sout0_C_0 kernelRun0_C
  dsimp only
  sl_unfold_run_names
  refine (View.read_writes_cons_rows_of_not_mem arg6.view (harg6.unread xs0) (k0_off2_inb i) _ [] (ix2 cc d)
    (colOff_eq i) rfl hcc).trans ?_
  exact congrFun (harg6.read_unread xs0) (ix2 cc d)

/-! ## Case A: the first visit, which starts both aggregates from zero -/

/-- A node of the first row stretch: its outgoing entry is zero plus the first column stretch's part. -/
theorem outgoing_A_hit (hc0 : cond0_0 i) (hc1 : ¬cond0_1 i)
    (r : Fin 4096) (d : Fin 150) (p : Fin 512) (hp : r.val = k0_off1 i 0 + p.val)
    (cn : Fin 512 → Fin 4096) (hcn : ∀ k, (cn k).val = k0_off2 i 0 + k.val) :
    sout0_A_1 (F := Ideal) c i arg2 harg2 arg3 harg3 arg4 harg4 arg5 harg5 arg6 harg6 arg7 harg7 hc0 hc1 x0 x1 (ix2 r d)
      = 0 + ∑ k : Fin 512, (x0 (ix3 (0 : Fin 2) p k) + x0 (ix3 (1 : Fin 2) p k)) * x1 (ix2 (cn k) d) := by
  unfold sout0_A_1 kernelRun0_A
  dsimp only
  sl_unfold_run_names
  refine (View.read_writes_cons_rows_of_mem VS0_1 _ (k0_off1_inb i) _ _ (ix2 r d) (ix2 p d)
    (rowOff_eq i) hp rfl).trans ?_
  refine (outgoing_payload i arg2 harg2 arg3 harg3 x0 x1 _ p d cn hcn).trans ?_
  exact congrArg (· + _) ((filled arg7.view _ (k0_pay2 (F := Ideal)) _).trans (fill1_zero _))

/-- Every other node's outgoing entry is zero. -/
theorem outgoing_A_miss (hc0 : cond0_0 i) (hc1 : ¬cond0_1 i)
    (r : Fin 4096) (d : Fin 150) (hr : r.val < k0_off1 i 0 ∨ k0_off1 i 0 + 512 ≤ r.val) :
    sout0_A_1 (F := Ideal) c i arg2 harg2 arg3 harg3 arg4 harg4 arg5 harg5 arg6 harg6 arg7 harg7 hc0 hc1 x0 x1 (ix2 r d) = 0 := by
  unfold sout0_A_1 kernelRun0_A
  dsimp only
  sl_unfold_run_names
  refine (View.read_writes_cons_rows_of_not_mem VS0_1 _ (k0_off1_inb i) _ _ (ix2 r d)
    (rowOff_eq i) rfl hr).trans ?_
  exact (filled VS0_1 _ (k0_pay2 (F := Ideal)) (ix2 r d)).trans (fill1_zero _)

/-- A node of the first column stretch: its incoming entry is zero plus the first row stretch's part. -/
theorem incoming_A_hit (hc0 : cond0_0 i) (hc1 : ¬cond0_1 i)
    (cc : Fin 4096) (d : Fin 150) (p : Fin 512) (hp : cc.val = k0_off2 i 0 + p.val)
    (rn : Fin 512 → Fin 4096) (hrn : ∀ k, (rn k).val = k0_off1 i 0 + k.val) :
    sout0_A_0 (F := Ideal) c i arg2 harg2 arg3 harg3 arg4 harg4 arg5 harg5 arg6 harg6 arg7 harg7 hc0 hc1 x0 x1 (ix2 cc d)
      = 0 + ∑ k : Fin 512, (x0 (ix3 (0 : Fin 2) k p) + x0 (ix3 (1 : Fin 2) k p)) * x1 (ix2 (rn k) d) := by
  unfold sout0_A_0 kernelRun0_A
  dsimp only
  sl_unfold_run_names
  refine (View.read_writes_cons_rows_of_mem VS0_0 _ (k0_off2_inb i) _ _ (ix2 cc d) (ix2 p d)
    (colOff_eq i) hp rfl).trans ?_
  refine (incoming_payload i arg2 harg2 arg3 harg3 x0 x1 _ p d rn hrn).trans ?_
  exact congrArg (· + _) ((filled arg6.view _ (k0_pay1 (F := Ideal)) _).trans (fill0_zero _))

/-- Every other node's incoming entry is zero. -/
theorem incoming_A_miss (hc0 : cond0_0 i) (hc1 : ¬cond0_1 i)
    (cc : Fin 4096) (d : Fin 150) (hcc : cc.val < k0_off2 i 0 ∨ k0_off2 i 0 + 512 ≤ cc.val) :
    sout0_A_0 (F := Ideal) c i arg2 harg2 arg3 harg3 arg4 harg4 arg5 harg5 arg6 harg6 arg7 harg7 hc0 hc1 x0 x1 (ix2 cc d) = 0 := by
  unfold sout0_A_0 kernelRun0_A
  dsimp only
  sl_unfold_run_names
  refine (View.read_writes_cons_rows_of_not_mem VS0_0 _ (k0_off2_inb i) _ _ (ix2 cc d)
    (colOff_eq i) rfl hcc).trans ?_
  exact (filled VS0_0 _ (k0_pay1 (F := Ideal)) (ix2 cc d)).trans (fill0_zero _)

/-! ## The last visit's results: whole copies of the two aggregates after its update -/

theorem zero_offsets : (![0, 0] : Fin 2 → ℕ) = fun _ => 0 :=
  funext fun a => match a with | ⟨0, _⟩ => rfl | ⟨1, _⟩ => rfl

/-- The first result is the incoming aggregate after the last visit. -/
theorem result0_C (hc0 : ¬cond0_0 i) (hc1 : cond0_1 i) (xs0 xs1 : Vec Ideal S4096x150 .f32) :
    out0_C_2 (F := Ideal) c i arg2 harg2 arg3 harg3 arg4 harg4 arg5 harg5 arg6 harg6 arg7 harg7 hc0 hc1 x0 x1 xs0 xs1 = sout0_C_0 (F := Ideal) c i arg2 harg2 arg3 harg3 arg4 harg4 arg5 harg5 arg6 harg6 arg7 harg7 hc0 hc1 x0 x1 xs0 xs1 := by
  funext y
  unfold out0_C_2 sout0_C_0 kernelRun0_C
  dsimp only
  sl_unfold_run_names
  refine (filled VO0_2 _ _ y).trans ?_
  exact congrFun (View.ld_unit_zero (S := S4096x150) zero_offsets inb_S4096x150_S4096x150_0_0 (arg6.view.read (Elt Ideal) _)) y

/-- The second result is the outgoing aggregate after the last visit. -/
theorem result1_C (hc0 : ¬cond0_0 i) (hc1 : cond0_1 i) (xs0 xs1 : Vec Ideal S4096x150 .f32) :
    out0_C_3 (F := Ideal) c i arg2 harg2 arg3 harg3 arg4 harg4 arg5 harg5 arg6 harg6 arg7 harg7 hc0 hc1 x0 x1 xs0 xs1 = sout0_C_1 (F := Ideal) c i arg2 harg2 arg3 harg3 arg4 harg4 arg5 harg5 arg6 harg6 arg7 harg7 hc0 hc1 x0 x1 xs0 xs1 := by
  funext y
  unfold out0_C_3 sout0_C_1 kernelRun0_C
  dsimp only
  sl_unfold_run_names
  refine (filled VO0_3 _ _ y).trans ?_
  exact congrFun (View.ld_unit_zero (S := S4096x150) zero_offsets inb_S4096x150_S4096x150_0_0 (arg7.view.read (Elt Ideal) _)) y

end

end Cert.Aggregation.Visit

end
-- ==== Proof.Handed.lean ====
/-
  What a visit is handed, in terms of the two argument arrays.

  The edge weights reach the visits with the edge-type axis moved to the front: entry (e, r, c) of the moved array is
  entry (r, c, e) of the argument. The visit numbered t, of the pair of stretches (t / 8, t % 8), is handed the block
  of that array whose entry (e, p, k) is the moved array at (e, 512·(t / 8) + p, 512·(t % 8) + k), and the feature
  matrix whole. Its row stores and loads start at row 512·(t / 8), its column ones at row 512·(t % 8).
-/
import proofs.«125224_j58471684767747_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

namespace Cert.Aggregation.Handed

open Cert.KernelIdeal Cert.KernelIdeal.Gen Idealize.ShloMosaic Idealize.ShloMosaic.TcCoe Idealize.ShloMosaic.Tactic
open Idealize.ShloMosaic.ValueIdx Idealize.SL.Sem

/-- The row offset of the visit numbered `t` is 512·(t / 8), its column offset 512·(t % 8): decided over the 64 visits. -/
theorem offsets : ∀ t : Fin cfg0.N,
    k0_off1 (grid0.coords t) 0 = t.val / 8 * 512 ∧ k0_off2 (grid0.coords t) 0 = t.val % 8 * 512 :=
  (by decide +kernel : ∀ t : Fin grid0.N,
    k0_off1 (grid0.coords t) 0 = t.val / 8 * 512 ∧ k0_off2 (grid0.coords t) 0 = t.val % 8 * 512)

/-- The block of the moved edge weights handed to the visit numbered `t` is block (0, t / 8, t % 8). -/
theorem tile_index : ∀ t : Fin cfg0.N,
    win0_0.index t (0 : Fin 3) = 0 ∧ win0_0.index t (1 : Fin 3) = t.val / 8 ∧ win0_0.index t (2 : Fin 3) = t.val % 8 :=
  (by decide +kernel : ∀ t : Fin grid0.N,
    win0_0.index t (0 : Fin 3) = 0 ∧ win0_0.index t (1 : Fin 3) = t.val / 8 ∧ win0_0.index t (2 : Fin 3) = t.val % 8)

/-- The feature matrix is handed over whole: block (0, 0) at every visit. -/
theorem feat_index : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

variable (m : (ℓ : Loc nD τ sig) → Buf (Elt Ideal) ℓ)

/-- When the visits start, the moved array is the argument with its edge-type axis in front. -/
theorem edges_moved (c : Dev nD) :
    (V m c main_v0 : S2x4096x4096.Idx → EReal)
      = transpose S2x4096x4096 [2, 0, 1] (m ((c : Thread nD τ).loc main_arg0)) transposes_S4096x4096x2_S2x4096x4096_2_0_1 := by
  dsimp only [Gen.V, Gen.hostOps0]
  after_results

/-- Entry (e, p, k) of the tile handed to the visit numbered `t` is the argument's entry (r, c, e), r and c the nodes
    at positions p and k of the visit's row and column stretches. -/
theorem tile_entry (c : Dev nD) (t : Fin cfg0.N) (e : Fin 2) (p k : Fin 512) (r cc : Fin 4096)
    (hr : r.val = t.val / 8 * 512 + p.val) (hcc : cc.val = t.val % 8 * 512 + k.val) :
    (iblk m c 0 t : Vec Ideal S2x512x512 .f32) (ix3 e p k) = m ((c : Thread nD τ).loc main_arg0) (ix3 r cc e) := by
  obtain ⟨h0, h1, h2⟩ := tile_index t
  unfold iblk
  rw [View.read_apply]
  show V m c main_v0 _ = _
  rw [edges_moved]
  refine transpose_apply _ _ _ _ _ (fun b => ?_)
  match b with
  | ⟨0, _⟩ => show e.val = win0_0.index t 0 * 2 + 1 * e.val; rw [h0]; omega
  | ⟨1, _⟩ => show r.val = win0_0.index t 1 * 512 + 1 * p.val; rw [h1]; omega
  | ⟨2, _⟩ => show cc.val = win0_0.index t 2 * 512 + 1 * k.val; rw [h2]; omega

/-- The features handed to a visit are the argument's. -/
theorem feat_entry (c : Dev nD) (t : Fin cfg0.N) (r : Fin 4096) (d : Fin 150) :
    (iblk m c 1 t : Vec Ideal S4096x150 .f32) (ix2 r d) = m ((c : Thread nD τ).loc main_arg1) (ix2 r d) := by
  obtain ⟨h0, h1⟩ := feat_index t
  unfold iblk
  rw [View.read_apply]
  show V m c main_arg1 _ = _
  rw [V_main_arg1]
  refine congrArg _ (funext fun a => Fin.ext ?_)
  match a with
  | ⟨0, _⟩ => show win0_1.index t 0 * 4096 + 1 * r.val = r.val; rw [h0]; omega
  | ⟨1, _⟩ => show win0_1.index t 1 * 150 + 1 * d.val = d.val; rw [h1]; omega

end Cert.Aggregation.Handed

end
-- ==== Proof.LibRunning.lean ====
/-
  Running sums over entries visited in the order of a numbering.

  The entries of a finite family are numbered by an injective map into the naturals. The sum of the entries whose
  number is at most t + 1 is the sum of those numbered at most t plus the entry numbered t + 1 when there is one, and
  is unchanged when no entry has that number; the sum of the entries numbered at most 0 is the entry numbered 0, or
  zero; once t bounds every number the sum is the sum of the whole family. No order of summation is involved: the
  statements hold in any commutative additive monoid.
-/
import Mathlib.Algebra.BigOperators.Group.Finset.Basic
import Mathlib.Algebra.BigOperators.Group.Finset.Piecewise
import Mathlib.Data.Fintype.Basic

open Finset

namespace Cert.LibRunning

variable {ι M : Type*} [Fintype ι] [DecidableEq ι] [AddCommMonoid M]

/-- The sum of the entries whose number is at most `t`. -/
def upTo (num : ι → ℕ) (B : ι → M) (t : ℕ) : M := ∑ a, if num a ≤ t then B a else 0

/-- One more number, carried by the entry `a0`: the sum grows by that entry. -/
theorem upTo_succ_hit (num : ι → ℕ) (hinj : Function.Injective num) (B : ι → M) (t : ℕ) (a0 : ι)
    (h : num a0 = t + 1) : upTo num B (t + 1) = upTo num B t + B a0 := by
  unfold upTo
  have key : ∀ a, (if num a ≤ t + 1 then B a else 0)
      = (if num a ≤ t then B a else 0) + (if a = a0 then B a else 0) := by
    intro a
    by_cases ha : a = a0
    · subst ha
      rw [if_pos (by omega), if_neg (by omega), if_pos rfl, zero_add]
    · have hne : num a ≠ t + 1 := fun e => ha (hinj (e.trans h.symm))
      by_cases hle : num a ≤ t
      · rw [if_pos (by omega), if_pos hle, if_neg ha, add_zero]
      · rw [if_neg (by omega), if_neg hle, if_neg ha, add_zero]
  rw [Finset.sum_congr rfl (fun a _ => key a), Finset.sum_add_distrib, Finset.sum_ite_eq' Finset.univ a0 B,
    if_pos (Finset.mem_univ a0)]

/-- One more number, carried by no entry: the sum is unchanged. -/
theorem upTo_succ_miss (num : ι → ℕ) (B : ι → M) (t : ℕ) (h : ∀ a, num a ≠ t + 1) :
    upTo num B (t + 1) = upTo num B t := by
  unfold upTo
  refine Finset.sum_congr rfl fun a _ => ?_
  have := h a
  by_cases hle : num a ≤ t
  · rw [if_pos (by omega), if_pos hle]
  · rw [if_neg (by omega), if_neg hle]

/-- The entries numbered at most 0 are the entry numbered 0, when there is one. -/
theorem upTo_zero_hit (num : ι → ℕ) (hinj : Function.Injective num) (B : ι → M) (a0 : ι) (h : num a0 = 0) :
    upTo num B 0 = B a0 := by
  unfold upTo
  have key : ∀ a, (if num a ≤ 0 then B a else 0) = (if a = a0 then B a else 0) := by
    intro a
    by_cases ha : a = a0
    · subst ha
      rw [if_pos (by omega), if_pos rfl]
    · have hne : num a ≠ 0 := fun e => ha (hinj (e.trans h.symm))
      rw [if_neg (by omega), if_neg ha]
  rw [Finset.sum_congr rfl (fun a _ => key a), Finset.sum_ite_eq' Finset.univ a0 B, if_pos (Finset.mem_univ a0)]

/-- No entry is numbered 0: the sum of the entries numbered at most 0 is zero. -/
theorem upTo_zero_miss (num : ι → ℕ) (B : ι → M) (h : ∀ a, num a ≠ 0) : upTo num B 0 = 0 := by
  unfold upTo
  refine Finset.sum_eq_zero fun a _ => ?_
  have := h a
  rw [if_neg (by omega)]

/-- Once `t` bounds every number, the sum is the sum of the whole family. -/
theorem upTo_all (num : ι → ℕ) (B : ι → M) (t : ℕ) (h : ∀ a, num a ≤ t) : upTo num B t = ∑ a, B a := by
  unfold upTo
  exact Finset.sum_congr rfl fun a _ => if_pos (h a)

end Cert.LibRunning
-- ==== Proof.LibBlocks.lean ====
/-
  Sums over a range cut into stretches of equal length.

  A range of A * B entries is A stretches of B entries; entry b of stretch a is entry a * B + b of the range, and a
  sum over the range is the sum over the stretches of each stretch's sum.
-/
import Mathlib.Algebra.BigOperators.Fin
import Mathlib.Logic.Equiv.Fin.Basic

open Finset

namespace Cert.LibBlocks

/-- Entry `b` of stretch `a`, when a range of `A * B` entries is cut into `A` stretches of `B`. -/
def entry {A B : ℕ} (a : Fin A) (b : Fin B) : Fin (A * B) :=
  ⟨a.val * B + b.val, by
    have h1 : a.val * B + b.val < a.val * B + B := Nat.add_lt_add_left b.isLt _
    have h2 : a.val * B + B = (a.val + 1) * B := (Nat.succ_mul _ _).symm
    have h3 : (a.val + 1) * B ≤ A * B := Nat.mul_le_mul_right _ a.isLt
    omega⟩

/-- A sum over `A * B` entries is the sum over the stretches of each stretch's sum. -/
theorem sum_entries {M : Type*} [AddCommMonoid M] {A B : ℕ} (g : Fin (A * B) → M) :
    ∑ k, g k = ∑ a : Fin A, ∑ b : Fin B, g (entry a b) := by
  rw [← finProdFinEquiv.sum_comp g, Fintype.sum_prod_type]
  refine sum_congr rfl fun a _ => sum_congr rfl fun b _ => congrArg g (Fin.ext ?_)
  show b.val + B * a.val = a.val * B + b.val
  rw [Nat.mul_comm, Nat.add_comm]

end Cert.LibBlocks
-- ==== Proof.Aggregation.lean ====
/-
  The mathematics of the aggregation, with no program in sight.

  A graph on 4096 nodes carries, on the ordered pair (r, c), two edge weights; their sum is the weight of the pair.
  Every node has 150 features. A node's outgoing aggregate is the weighted sum of the features of the nodes it
  points to, its incoming aggregate the weighted sum of the features of the nodes pointing to it:

      outgoing (r, d) = ∑ over c of weight (r, c) · h (c, d)        incoming (c, d) = ∑ over r of weight (r, c) · h (r, d).

  The nodes are cut into 8 stretches of 512. The 64 pairs (row stretch p, column stretch q) are visited in the order
  of the number 8·p + q. The visit of (p, q) adds, to the outgoing aggregate of each node r of stretch p, the part of its
  sum that runs over the nodes of stretch q, and to the incoming aggregate of each node c of stretch q the part of its
  sum that runs over the nodes of stretch p. So after the visit numbered t, the outgoing aggregate of r holds the parts
  of the column stretches q with 8·(r / 512) + q ≤ t, and the incoming aggregate of c the parts of the row stretches p
  with 8·p + c / 512 ≤ t. After the visit numbered 63 every part is in, and the parts of a sum over 8 stretches of 512 add
  up to the sum over all 4096 nodes. Sums here are sums of extended reals, where addition is commutative and
  associative without any finiteness assumption; nothing else about the extended reals is used.
-/
import Idealize.ShloMosaic.PureOps.Ideal
import Idealize.ShloMosaic.Lib.ValueIdx
import proofs.«125224_j58471684767747_2_alg».proof.Proof.LibRunning
import proofs.«125224_j58471684767747_2_alg».proof.Proof.LibBlocks

noncomputable section

open scoped BigOperators

namespace Cert.Aggregation

open Idealize.ShloMosaic Idealize.ShloMosaic.ValueIdx

/-- The shape of the edge weights: source node, target node, edge type. -/
abbrev SEdges : Shape := ⟨3, ![4096, 4096, 2]⟩
/-- The shape of the node features. -/
abbrev SFeat : Shape := ⟨2, ![4096, 150]⟩

variable (adj : FVec Ideal SEdges .f32) (h : FVec Ideal SFeat .f32)

/-- The weight of the ordered pair (r, c): its two edge types added. -/
def weight (r c : Fin 4096) : EReal := adj (ix3 r c (0 : Fin 2)) + adj (ix3 r c (1 : Fin 2))

/-- Node `b` of stretch `a`. -/
def node (a : Fin 8) (b : Fin 512) : Fin 4096 := ⟨a.val * 512 + b.val, by have := a.isLt; have := b.isLt; omega⟩

theorem node_val (a : Fin 8) (b : Fin 512) : (node a b).val = a.val * 512 + b.val := rfl

/-- The outgoing aggregate of node `r`, feature `d`. -/
def outgoing (r : Fin 4096) (d : Fin 150) : EReal := ∑ c : Fin 4096, weight adj r c * h (ix2 c d)

/-- The incoming aggregate of node `c`, feature `d`. -/
def incoming (c : Fin 4096) (d : Fin 150) : EReal := ∑ r : Fin 4096, weight adj r c * h (ix2 r d)

/-- The part of the outgoing aggregate of `r` that runs over the nodes of stretch `q`. -/
def outPart (r : Fin 4096) (d : Fin 150) (q : Fin 8) : EReal :=
  ∑ b : Fin 512, weight adj r (node q b) * h (ix2 (node q b) d)

/-- The part of the incoming aggregate of `c` that runs over the nodes of stretch `p`. -/
def inPart (c : Fin 4096) (d : Fin 150) (p : Fin 8) : EReal :=
  ∑ b : Fin 512, weight adj (node p b) c * h (ix2 (node p b) d)

/-- The eight parts of an outgoing aggregate add up to it. -/
theorem sum_outPart (r : Fin 4096) (d : Fin 150) : ∑ q, outPart adj h r d q = outgoing adj h r d :=
  (Cert.LibBlocks.sum_entries (A := 8) (B := 512) (fun c : Fin 4096 => weight adj r c * h (ix2 c d))).symm

/-- The eight parts of an incoming aggregate add up to it. -/
theorem sum_inPart (c : Fin 4096) (d : Fin 150) : ∑ p, inPart adj h c d p = incoming adj h c d :=
  (Cert.LibBlocks.sum_entries (A := 8) (B := 512) (fun r : Fin 4096 => weight adj r c * h (ix2 r d))).symm

/-! ## The order of the visits -/

/-- The number of the visit that adds column stretch `q` to the outgoing aggregate of `r`. -/
def outNum (r : Fin 4096) (q : Fin 8) : ℕ := r.val / 512 * 8 + q.val

/-- The number of the visit that adds row stretch `p` to the incoming aggregate of `c`. -/
def inNum (c : Fin 4096) (p : Fin 8) : ℕ := p.val * 8 + c.val / 512

theorem outNum_injective (r : Fin 4096) : Function.Injective (outNum r) :=
  fun q q' e => Fin.ext (by unfold outNum at e; omega)

theorem inNum_injective (c : Fin 4096) : Function.Injective (inNum c) :=
  fun p p' e => Fin.ext (by unfold inNum at e; omega)

/-- The outgoing aggregate of `r` after the visit numbered `t`. -/
def outUpTo (t : ℕ) (r : Fin 4096) (d : Fin 150) : EReal := Cert.LibRunning.upTo (outNum r) (outPart adj h r d) t

/-- The incoming aggregate of `c` after the visit numbered `t`. -/
def inUpTo (t : ℕ) (c : Fin 4096) (d : Fin 150) : EReal := Cert.LibRunning.upTo (inNum c) (inPart adj h c d) t

/-- The first visit, of the pair of stretches (0, 0), leaves its part with the nodes of stretch 0 … -/
theorem outUpTo_zero_hit (r : Fin 4096) (d : Fin 150) (hr : r.val / 512 = 0) :
    outUpTo adj h 0 r d = outPart adj h r d 0 :=
  Cert.LibRunning.upTo_zero_hit _ (outNum_injective r) _ 0 (by unfold outNum; rw [hr]; rfl)

/-- … and nothing with the others. -/
theorem outUpTo_zero_miss (r : Fin 4096) (d : Fin 150) (hr : r.val / 512 ≠ 0) : outUpTo adj h 0 r d = 0 :=
  Cert.LibRunning.upTo_zero_miss _ _ (fun q => by unfold outNum; omega)

theorem inUpTo_zero_hit (c : Fin 4096) (d : Fin 150) (hc : c.val / 512 = 0) :
    inUpTo adj h 0 c d = inPart adj h c d 0 :=
  Cert.LibRunning.upTo_zero_hit _ (inNum_injective c) _ 0 (by unfold inNum; rw [hc]; rfl)

theorem inUpTo_zero_miss (c : Fin 4096) (d : Fin 150) (hc : c.val / 512 ≠ 0) : inUpTo adj h 0 c d = 0 :=
  Cert.LibRunning.upTo_zero_miss _ _ (fun p => by unfold inNum; omega)

/-- The visit numbered `t + 1`, of the pair of stretches (p, q), adds column stretch `q` to the nodes of row stretch `p` … -/
theorem outUpTo_succ_hit (t p q : ℕ) (hq : q < 8) (ht : t + 1 = p * 8 + q) (r : Fin 4096) (d : Fin 150)
    (hr : r.val / 512 = p) : outUpTo adj h (t + 1) r d = outUpTo adj h t r d + outPart adj h r d ⟨q, hq⟩ :=
  Cert.LibRunning.upTo_succ_hit _ (outNum_injective r) _ t ⟨q, hq⟩ (by unfold outNum; rw [hr]; exact ht.symm)

/-- … and leaves the other nodes' outgoing aggregates as they were. -/
theorem outUpTo_succ_miss (t p q : ℕ) (hq : q < 8) (ht : t + 1 = p * 8 + q) (r : Fin 4096) (d : Fin 150)
    (hr : r.val / 512 ≠ p) : outUpTo adj h (t + 1) r d = outUpTo adj h t r d :=
  Cert.LibRunning.upTo_succ_miss _ _ t (fun a => by unfold outNum; have := a.isLt; omega)

/-- The same visit adds row stretch `p` to the nodes of column stretch `q` … -/
theorem inUpTo_succ_hit (t p q : ℕ) (hp : p < 8) (hq : q < 8) (ht : t + 1 = p * 8 + q) (c : Fin 4096) (d : Fin 150)
    (hc : c.val / 512 = q) : inUpTo adj h (t + 1) c d = inUpTo adj h t c d + inPart adj h c d ⟨p, hp⟩ :=
  Cert.LibRunning.upTo_succ_hit _ (inNum_injective c) _ t ⟨p, hp⟩ (by unfold inNum; rw [hc]; exact ht.symm)

/-- … and leaves the other nodes' incoming aggregates as they were. -/
theorem inUpTo_succ_miss (t p q : ℕ) (hq : q < 8) (ht : t + 1 = p * 8 + q) (c : Fin 4096) (d : Fin 150)
    (hc : c.val / 512 ≠ q) : inUpTo adj h (t + 1) c d = inUpTo adj h t c d :=
  Cert.LibRunning.upTo_succ_miss _ _ t (fun a => by
    unfold inNum; have := a.isLt; have := c.isLt; omega)

/-- After the last visit every part is in. -/
theorem outUpTo_last (r : Fin 4096) (d : Fin 150) : outUpTo adj h 63 r d = outgoing adj h r d :=
  (Cert.LibRunning.upTo_all _ _ 63 (fun q => by unfold outNum; have := q.isLt; have := r.isLt; omega)).trans
    (sum_outPart adj h r d)

theorem inUpTo_last (c : Fin 4096) (d : Fin 150) : inUpTo adj h 63 c d = incoming adj h c d :=
  (Cert.LibRunning.upTo_all _ _ 63 (fun p => by unfold inNum; have := p.isLt; have := c.isLt; omega)).trans
    (sum_inPart adj h c d)

end Cert.Aggregation

end
-- ==== Proof.Sweep.lean ====
/-
  The sweep over the 64 visits.

  After the visit numbered n, the outgoing aggregate of every node r holds the parts of the column stretches whose
  visit (numbered 8·(r / 512) + q) has happened, and the incoming aggregate of every node c the parts of the row
  stretches whose visit (numbered 8·p + c / 512) has happened: by induction on n. The first visit starts from zero and
  adds the part of the pair of stretches (0, 0); each later visit adds the part of its pair to the nodes of its row
  stretch (outgoing) and of its column stretch (incoming) and leaves every other entry alone. After the visit numbered
  63 both aggregates are complete, and that visit copies them into the two results.
-/
import proofs.«125224_j58471684767747_2_alg».proof.Proof.Gen.KernelIdeal.Frame
import proofs.«125224_j58471684767747_2_alg».proof.Proof.Visit
import proofs.«125224_j58471684767747_2_alg».proof.Proof.Handed
import proofs.«125224_j58471684767747_2_alg».proof.Proof.Aggregation

noncomputable section

open scoped BigOperators

namespace Cert.Aggregation.Sweep

open Cert.KernelIdeal Cert.KernelIdeal.Gen Idealize.ShloMosaic Idealize.ShloMosaic.TcCoe
open Idealize.ShloMosaic.ValueIdx Idealize.SL.Sem Cert.Aggregation

variable (m : (ℓ : Loc nD τ sig) → Buf (Elt Ideal) ℓ)

/-- The edge weights on core `c`, as launched. -/
abbrev edges (c : Dev nD) : FVec Ideal SEdges .f32 := m ((c : Thread nD τ).loc main_arg0)
/-- The node features on core `c`, as launched. -/
abbrev feats (c : Dev nD) : FVec Ideal SFeat .f32 := m ((c : Thread nD τ).loc main_arg1)

/-- What the visit numbered `t` adds to the outgoing entry of a node `r` of its row stretch is the part of `r`'s sum over
    its column stretch. -/
theorem part_out (c : Dev nD) (t : Fin cfg0.N) (x0 : Vec Ideal S2x512x512 .f32) (x1 : Vec Ideal S4096x150 .f32)
    (hx0 : x0 = iblk m c 0 t) (hx1 : x1 = iblk m c 1 t) (r : Fin 4096) (d : Fin 150) (p : Fin 512)
    (hp : r.val = t.val / 8 * 512 + p.val) (q : Fin 8) (hq : q.val = t.val % 8) :
    ∑ k : Fin 512, (x0 (ix3 (0 : Fin 2) p k) + x0 (ix3 (1 : Fin 2) p k)) * x1 (ix2 (node q k) d)
      = outPart (edges m c) (feats m c) r d q := by
  subst hx0 hx1
  unfold outPart
  refine Finset.sum_congr rfl fun k _ => ?_
  rw [Handed.tile_entry m c t 0 p k r (node q k) hp (by rw [node_val, hq]), Handed.tile_entry m c t 1 p k r (node q k) hp (by rw [node_val, hq]), Handed.feat_entry]
  rfl

/-- What it adds to the incoming entry of a node `cc` of its column stretch is the part of `cc`'s sum over its row stretch. -/
theorem part_in (c : Dev nD) (t : Fin cfg0.N) (x0 : Vec Ideal S2x512x512 .f32) (x1 : Vec Ideal S4096x150 .f32)
    (hx0 : x0 = iblk m c 0 t) (hx1 : x1 = iblk m c 1 t) (cc : Fin 4096) (d : Fin 150) (p : Fin 512)
    (hp : cc.val = t.val % 8 * 512 + p.val) (q : Fin 8) (hq : q.val = t.val / 8) :
    ∑ k : Fin 512, (x0 (ix3 (0 : Fin 2) k p) + x0 (ix3 (1 : Fin 2) k p)) * x1 (ix2 (node q k) d)
      = inPart (edges m c) (feats m c) cc d q := by
  subst hx0 hx1
  unfold inPart
  refine Finset.sum_congr rfl fun k _ => ?_
  rw [Handed.tile_entry m c t 0 k p (node q k) cc (by rw [node_val, hq]) hp, Handed.tile_entry m c t 1 k p (node q k) cc (by rw [node_val, hq]) hp, Handed.feat_entry]
  rfl

/-! ## A later visit, against the visit before it -/

/-- A node of the visit's row stretch gains the column stretch's part. -/
theorem step_out_hit (c : Dev nD) (t : Fin cfg0.N) (h0 : ¬t.val % 64 = 0) (r : Fin 4096) (d : Fin 150)
    (hr : r.val / 512 = t.val / 8) :
    (outsAt0 m c t.val t.isLt).2.2.2 (ix2 r d)
      = (outsAt0 m c (t.val - 1) (Nat.lt_of_le_of_lt (Nat.sub_le _ _) t.isLt)).2.2.2 (ix2 r d)
        + outPart (edges m c) (feats m c) r d ⟨t.val % 8, Nat.mod_lt _ (by decide)⟩ := by
  obtain ⟨ho1, ho2⟩ := Handed.offsets t
  have hp : r.val % 512 < 512 := Nat.mod_lt _ (by decide)
  have hrp : r.val = t.val / 8 * 512 + (⟨r.val % 512, hp⟩ : Fin 512).val := by dsimp only; omega
  have hpart := part_out m c t (iblk m c 0 t) (iblk m c 1 t) rfl rfl r d ⟨r.val % 512, hp⟩ hrp ⟨t.val % 8, Nat.mod_lt _ (by decide)⟩ rfl
  by_cases h1 : t.val % 64 = 63
  · rw [outsAt0_C m c t h0 h1]
    dsimp only
    refine (Visit.outgoing_C_hit c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) ((hcond0_1 t).mpr h1) (outsAt0 m c (t.val - 1) (Nat.lt_of_le_of_lt (Nat.sub_le _ _) t.isLt)).2.2.1 (outsAt0 m c (t.val - 1) (Nat.lt_of_le_of_lt (Nat.sub_le _ _) t.isLt)).2.2.2 r d ⟨r.val % 512, hp⟩ (by rw [ho1]; exact hrp)
      (node ⟨t.val % 8, Nat.mod_lt _ (by decide)⟩) (fun k => by rw [ho2, node_val])).trans ?_
    exact congrArg (_ + ·) hpart
  · rw [outsAt0_B m c t h0 h1]
    dsimp only
    refine (Visit.outgoing_B_hit c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2 r d ⟨r.val % 512, hp⟩ (by rw [ho1]; exact hrp)
      (node ⟨t.val % 8, Nat.mod_lt _ (by decide)⟩) (fun k => by rw [ho2, node_val])).trans ?_
    exact congrArg (_ + ·) hpart

/-- A node outside the visit's row stretch keeps its outgoing entry. -/
theorem step_out_miss (c : Dev nD) (t : Fin cfg0.N) (h0 : ¬t.val % 64 = 0) (r : Fin 4096) (d : Fin 150)
    (hr : r.val / 512 ≠ t.val / 8) :
    (outsAt0 m c t.val t.isLt).2.2.2 (ix2 r d) = (outsAt0 m c (t.val - 1) (Nat.lt_of_le_of_lt (Nat.sub_le _ _) t.isLt)).2.2.2 (ix2 r d) := by
  obtain ⟨ho1, ho2⟩ := Handed.offsets t
  by_cases h1 : t.val % 64 = 63
  · rw [outsAt0_C m c t h0 h1]
    dsimp only
    exact Visit.outgoing_C_miss c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) ((hcond0_1 t).mpr h1) (outsAt0 m c (t.val - 1) (Nat.lt_of_le_of_lt (Nat.sub_le _ _) t.isLt)).2.2.1 (outsAt0 m c (t.val - 1) (Nat.lt_of_le_of_lt (Nat.sub_le _ _) t.isLt)).2.2.2 r d (by rw [ho1]; omega)
  · rw [outsAt0_B m c t h0 h1]
    dsimp only
    exact Visit.outgoing_B_miss c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2 r d (by rw [ho1]; omega)

/-- A node of the visit's column stretch gains the row stretch's part. -/
theorem step_in_hit (c : Dev nD) (t : Fin cfg0.N) (h0 : ¬t.val % 64 = 0) (hN : t.val < 64) (cc : Fin 4096) (d : Fin 150)
    (hcc : cc.val / 512 = t.val % 8) :
    (outsAt0 m c t.val t.isLt).2.2.1 (ix2 cc d)
      = (outsAt0 m c (t.val - 1) (Nat.lt_of_le_of_lt (Nat.sub_le _ _) t.isLt)).2.2.1 (ix2 cc d)
        + inPart (edges m c) (feats m c) cc d ⟨t.val / 8, by omega⟩ := by
  obtain ⟨ho1, ho2⟩ := Handed.offsets t
  have hp : cc.val % 512 < 512 := Nat.mod_lt _ (by decide)
  have hcp : cc.val = t.val % 8 * 512 + (⟨cc.val % 512, hp⟩ : Fin 512).val := by dsimp only; omega
  have hpart := part_in m c t (iblk m c 0 t) (iblk m c 1 t) rfl rfl cc d ⟨cc.val % 512, hp⟩ hcp ⟨t.val / 8, by omega⟩ rfl
  by_cases h1 : t.val % 64 = 63
  · rw [outsAt0_C m c t h0 h1]
    dsimp only
    refine (Visit.incoming_C_hit c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) ((hcond0_1 t).mpr h1) (outsAt0 m c (t.val - 1) (Nat.lt_of_le_of_lt (Nat.sub_le _ _) t.isLt)).2.2.1 (outsAt0 m c (t.val - 1) (Nat.lt_of_le_of_lt (Nat.sub_le _ _) t.isLt)).2.2.2 cc d ⟨cc.val % 512, hp⟩ (by rw [ho2]; exact hcp)
      (node ⟨t.val / 8, by omega⟩) (fun k => by rw [ho1, node_val])).trans ?_
    exact congrArg (_ + ·) hpart
  · rw [outsAt0_B m c t h0 h1]
    dsimp only
    refine (Visit.incoming_B_hit c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2 cc d ⟨cc.val % 512, hp⟩ (by rw [ho2]; exact hcp)
      (node ⟨t.val / 8, by omega⟩) (fun k => by rw [ho1, node_val])).trans ?_
    exact congrArg (_ + ·) hpart

/-- A node outside the visit's column stretch keeps its incoming entry. -/
theorem step_in_miss (c : Dev nD) (t : Fin cfg0.N) (h0 : ¬t.val % 64 = 0) (cc : Fin 4096) (d : Fin 150)
    (hcc : cc.val / 512 ≠ t.val % 8) :
    (outsAt0 m c t.val t.isLt).2.2.1 (ix2 cc d) = (outsAt0 m c (t.val - 1) (Nat.lt_of_le_of_lt (Nat.sub_le _ _) t.isLt)).2.2.1 (ix2 cc d) := by
  obtain ⟨ho1, ho2⟩ := Handed.offsets t
  by_cases h1 : t.val % 64 = 63
  · rw [outsAt0_C m c t h0 h1]
    dsimp only
    exact Visit.incoming_C_miss c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) ((hcond0_1 t).mpr h1) (outsAt0 m c (t.val - 1) (Nat.lt_of_le_of_lt (Nat.sub_le _ _) t.isLt)).2.2.1 (outsAt0 m c (t.val - 1) (Nat.lt_of_le_of_lt (Nat.sub_le _ _) t.isLt)).2.2.2 cc d (by rw [ho2]; omega)
  · rw [outsAt0_B m c t h0 h1]
    dsimp only
    exact Visit.incoming_B_miss c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2 cc d (by rw [ho2]; omega)

/-! ## The first visit -/

/-- After the first visit the outgoing aggregate holds the part of the pair of stretches (0, 0) and nothing else. -/
theorem first_out (c : Dev nD) (t : Fin cfg0.N) (h0 : t.val % 64 = 0) (hN : t.val < 64) (r : Fin 4096) (d : Fin 150) :
    (outsAt0 m c t.val t.isLt).2.2.2 (ix2 r d) = outUpTo (edges m c) (feats m c) 0 r d := by
  have h1 : ¬t.val % 64 = 63 := by omega
  obtain ⟨ho1, ho2⟩ := Handed.offsets t
  rw [outsAt0_A m c t h0 h1]
  dsimp only
  by_cases hr : r.val / 512 = 0
  · have hp : r.val % 512 < 512 := Nat.mod_lt _ (by decide)
    have hrp : r.val = t.val / 8 * 512 + (⟨r.val % 512, hp⟩ : Fin 512).val := by dsimp only; omega
    have hpart := part_out m c t (iblk m c 0 t) (iblk m c 1 t) rfl rfl r d ⟨r.val % 512, hp⟩ hrp (0 : Fin 8)
      (by show 0 = t.val % 8; omega)
    refine (Visit.outgoing_A_hit c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) ((hcond0_0 t).mpr h0) (fun h => h1 ((hcond0_1 t).mp h)) r d ⟨r.val % 512, hp⟩
      (by rw [ho1]; exact hrp) (node (0 : Fin 8))
      (fun k => by rw [ho2, node_val]; show 0 * 512 + k.val = t.val % 8 * 512 + k.val; omega)).trans ?_
    rw [zero_add, hpart, outUpTo_zero_hit _ _ r d hr]
  · refine (Visit.outgoing_A_miss c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) ((hcond0_0 t).mpr h0) (fun h => h1 ((hcond0_1 t).mp h)) r d
      (by rw [ho1]; omega)).trans ?_
    exact (outUpTo_zero_miss _ _ r d hr).symm

/-- After the first visit the incoming aggregate holds the part of the pair of stretches (0, 0) and nothing else. -/
theorem first_in (c : Dev nD) (t : Fin cfg0.N) (h0 : t.val % 64 = 0) (hN : t.val < 64) (cc : Fin 4096) (d : Fin 150) :
    (outsAt0 m c t.val t.isLt).2.2.1 (ix2 cc d) = inUpTo (edges m c) (feats m c) 0 cc d := by
  have h1 : ¬t.val % 64 = 63 := by omega
  obtain ⟨ho1, ho2⟩ := Handed.offsets t
  rw [outsAt0_A m c t h0 h1]
  dsimp only
  by_cases hcc : cc.val / 512 = 0
  · have hp : cc.val % 512 < 512 := Nat.mod_lt _ (by decide)
    have hcp : cc.val = t.val % 8 * 512 + (⟨cc.val % 512, hp⟩ : Fin 512).val := by dsimp only; omega
    have hpart := part_in m c t (iblk m c 0 t) (iblk m c 1 t) rfl rfl cc d ⟨cc.val % 512, hp⟩ hcp (0 : Fin 8)
      (by show 0 = t.val / 8; omega)
    refine (Visit.incoming_A_hit c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) ((hcond0_0 t).mpr h0) (fun h => h1 ((hcond0_1 t).mp h)) cc d ⟨cc.val % 512, hp⟩
      (by rw [ho2]; exact hcp) (node (0 : Fin 8))
      (fun k => by rw [ho1, node_val]; show 0 * 512 + k.val = t.val / 8 * 512 + k.val; omega)).trans ?_
    rw [zero_add, hpart, inUpTo_zero_hit _ _ cc d hcc]
  · refine (Visit.incoming_A_miss c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) ((hcond0_0 t).mpr h0) (fun h => h1 ((hcond0_1 t).mp h)) cc d
      (by rw [ho2]; omega)).trans ?_
    exact (inUpTo_zero_miss _ _ cc d hcc).symm

/-! ## All 64 visits -/

/-- After the visit numbered `n` the two running aggregates hold, at every node and feature, the parts of the visits
    numbered at most `n`. -/
theorem sweep (c : Dev nD) : ∀ (n : ℕ) (hn : n < cfg0.N) (r : Fin 4096) (d : Fin 150),
    (outsAt0 m c n hn).2.2.2 (ix2 r d) = outUpTo (edges m c) (feats m c) n r d
      ∧ (outsAt0 m c n hn).2.2.1 (ix2 r d) = inUpTo (edges m c) (feats m c) n r d
  | 0, hn, r, d => ⟨first_out m c ⟨0, hn⟩ rfl (by show (0 : ℕ) < 64; omega) r d, first_in m c ⟨0, hn⟩ rfl (by show (0 : ℕ) < 64; omega) r d⟩
  | n + 1, hn, r, d => by
    have hN : n + 1 < 64 := lt_of_lt_of_eq hn N_0
    obtain ⟨ih1, ih2⟩ := sweep c n (Nat.lt_of_succ_lt hn) r d
    have h0 : ¬(⟨n + 1, hn⟩ : Fin cfg0.N).val % 64 = 0 := by dsimp only; omega
    have hdec : n + 1 = (n + 1) / 8 * 8 + (n + 1) % 8 := by omega
    have hq : (n + 1) % 8 < 8 := Nat.mod_lt _ (by decide)
    have hp : (n + 1) / 8 < 8 := by omega
    constructor
    · by_cases hr : r.val / 512 = (n + 1) / 8
      · refine (step_out_hit m c ⟨n + 1, hn⟩ h0 r d hr).trans ?_
        show (outsAt0 m c n _).2.2.2 (ix2 r d) + _ = _
        rw [ih1]
        exact (outUpTo_succ_hit _ _ n ((n + 1) / 8) ((n + 1) % 8) hq hdec r d hr).symm
      · refine (step_out_miss m c ⟨n + 1, hn⟩ h0 r d hr).trans ?_
        show (outsAt0 m c n _).2.2.2 (ix2 r d) = _
        rw [ih1]
        exact (outUpTo_succ_miss _ _ n ((n + 1) / 8) ((n + 1) % 8) hq hdec r d hr).symm
    · by_cases hcc : r.val / 512 = (n + 1) % 8
      · refine (step_in_hit m c ⟨n + 1, hn⟩ h0 hN r d hcc).trans ?_
        show (outsAt0 m c n _).2.2.1 (ix2 r d) + _ = _
        rw [ih2]
        exact (inUpTo_succ_hit _ _ n ((n + 1) / 8) ((n + 1) % 8) hp hq hdec r d hcc).symm
      · refine (step_in_miss m c ⟨n + 1, hn⟩ h0 r d hcc).trans ?_
        show (outsAt0 m c n _).2.2.1 (ix2 r d) = _
        rw [ih2]
        exact (inUpTo_succ_miss _ _ n ((n + 1) / 8) ((n + 1) % 8) hq hdec r d hcc).symm

end Cert.Aggregation.Sweep

end
-- ==== Proof.Results.lean ====
/-
  The two results as whole arrays: entry (c, d) of the first is the incoming aggregate of node c at feature d, entry
  (r, d) of the second the outgoing aggregate of node r at feature d.
-/
import proofs.«125224_j58471684767747_2_alg».proof.Proof.Aggregation

noncomputable section

namespace Cert.Aggregation

open Idealize.ShloMosaic Idealize.ShloMosaic.ValueIdx

variable (adj : FVec Ideal SEdges .f32) (h : FVec Ideal SFeat .f32)

/-- The incoming aggregates of all nodes. -/
def incomingAll : FVec Ideal SFeat .f32 := fun y => incoming adj h (y 0) (y 1)

/-- The outgoing aggregates of all nodes. -/
def outgoingAll : FVec Ideal SFeat .f32 := fun y => outgoing adj h (y 0) (y 1)

theorem incomingAll_apply (c : Fin 4096) (d : Fin 150) : incomingAll adj h (ix2 c d) = incoming adj h c d := rfl

theorem outgoingAll_apply (r : Fin 4096) (d : Fin 150) : outgoingAll adj h (ix2 r d) = outgoing adj h r d := rfl

end Cert.Aggregation

end
-- ==== Proof.Outcome.lean ====
/-
  What the two result arrays hold when the visits are over.

  Only the last visit writes the results back, each as one block that is the whole array; what it writes is its copy of
  the running aggregate after its own update, which by the sweep holds every part: the incoming aggregates in the first
  result, the outgoing aggregates in the second.
-/
import proofs.«125224_j58471684767747_2_alg».proof.Proof.Gen.KernelIdeal.Value
import proofs.«125224_j58471684767747_2_alg».proof.Proof.Sweep
import proofs.«125224_j58471684767747_2_alg».proof.Proof.Results
import Idealize.ShloMosaic.Lib.Pipeline.Value

noncomputable section

namespace Cert.Aggregation.Outcome

open Cert.KernelIdeal Cert.KernelIdeal.Gen Idealize.ShloMosaic Idealize.ShloMosaic.TcCoe
open Idealize.ShloMosaic.ValueIdx Idealize.SL.Sem Cert.Aggregation Cert.Aggregation.Sweep
open Idealize.ShloMosaic.Pipeline (Dat)

/-- The last visit. -/
abbrev tLast : Fin cfg0.N := ⟨63, by rw [show cfg0.N = 64 from N_0]; decide⟩

/-- Each result is written back as block (0, 0) of its array: decided over the 64 visits. -/
theorem whole2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem whole3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

variable (m : (ℓ : Loc nD τ sig) → Buf (Elt Ideal) ℓ) (ρ : Dev nD → PrngReg)

/-- The last visit leaves the incoming aggregates of all nodes in the first result's buffer. -/
theorem last_incoming (c : Dev nD) (t : Fin cfg0.N) (h1 : t.val % 64 = 63) :
    (outsAt0 m c t.val t.isLt).1 = incomingAll (edges m c) (feats m c) := by
  have hN : t.val < 64 := lt_of_lt_of_eq t.isLt N_0
  have h63 : t.val = 63 := by omega
  have h0 : ¬t.val % 64 = 0 := by omega
  funext y
  obtain ⟨a, d, rfl⟩ : ∃ (a : Fin 4096) (d : Fin 150), y = ix2 a d := ⟨y 0, y 1, eq_ix2 y⟩
  have e := (sweep m c t.val t.isLt a d).2
  rw [outsAt0_C m c t h0 h1] at e ⊢
  dsimp only at e ⊢
  rw [Visit.result0_C, e, h63, incomingAll_apply]
  exact inUpTo_last _ _ a d

/-- Result 0's one write-back, by the last visit, writes that array whole. -/
theorem flushed2_eq (c : Dev nD) (t : Fin cfg0.N) (hf : (cfg0.win 2).flush t = true) :
    (dats m 0 c).flushed 2 t = ((cfg0.win 2).blk t).view.read (Elt Ideal) (incomingAll (edges m c) (feats m c)) := by
  have h1 : t.val % 64 = 63 := (flush0_2 t).mp hf
  obtain ⟨i0, i1⟩ := whole2 t
  rw [Cert.KernelIdeal.Value.flushed2, last_incoming m c t h1]
  have hz' : (fun a => win0_2.index t a * main_v1_0.ty.shape.size a) = fun _ => 0 := funext fun a => by
    match a with
    | ⟨0, _⟩ => show win0_2.index t 0 * 4096 = 0; rw [i0]
    | ⟨1, _⟩ => show win0_2.index t 1 * 150 = 0; rw [i1]
  exact (Memref.read_access_unit_zero (Elt Ideal) main_v1_0 hz' (fun a => by rw [congrFun hz' a]; simp)
    (incomingAll (edges m c) (feats m c))).symm

/-- So after the run result 0's array holds it: the last visit's block is the whole array. -/
theorem final2 (c : Dev nD) : (dats m 0 c).arrAt 2 cfg0.N = incomingAll (edges m c) (feats m c) :=
  (dats m 0 c).arrAt_eq_of_cover 2 (incomingAll (edges m c) (feats m c)) (flushed2_eq m c) fun i =>
    ⟨tLast, (flush0_2 tLast).mpr rfl, by
      show i ∈ ((View.whole main_v1_0).slice (win0_2.rect tLast)).set
      rw [View.set_slice_whole, Rect.mem_set_unit]
      intro a
      have h0 : (i 0 : Nat) < 4096 := (i 0).isLt
      have h1 : (i 1 : Nat) < 150 := (i 1).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [show win0_2.index tLast 0 * win0_2.size 0 = 0 from by decide +kernel,
          show win0_2.xsize (grid0.coords tLast) 0 = 4096 from by decide +kernel]
        omega
      | ⟨1, _⟩ =>
        show win0_2.index tLast 1 * win0_2.size 1 ≤ (i 1 : Nat)
          ∧ (i 1 : Nat) < win0_2.index tLast 1 * win0_2.size 1 + win0_2.xsize (grid0.coords tLast) 1
        rw [show win0_2.index tLast 1 * win0_2.size 1 = 0 from by decide +kernel,
          show win0_2.xsize (grid0.coords tLast) 1 = 150 from by decide +kernel]
        omega⟩

/-- The last visit leaves the outgoing aggregates of all nodes in the second result's buffer. -/
theorem last_outgoing (c : Dev nD) (t : Fin cfg0.N) (h1 : t.val % 64 = 63) :
    (outsAt0 m c t.val t.isLt).2.1 = outgoingAll (edges m c) (feats m c) := by
  have hN : t.val < 64 := lt_of_lt_of_eq t.isLt N_0
  have h63 : t.val = 63 := by omega
  have h0 : ¬t.val % 64 = 0 := by omega
  funext y
  obtain ⟨a, d, rfl⟩ : ∃ (a : Fin 4096) (d : Fin 150), y = ix2 a d := ⟨y 0, y 1, eq_ix2 y⟩
  have e := (sweep m c t.val t.isLt a d).1
  rw [outsAt0_C m c t h0 h1] at e ⊢
  dsimp only at e ⊢
  rw [Visit.result1_C, e, h63, outgoingAll_apply]
  exact outUpTo_last _ _ a d

/-- Result 1's one write-back, by the last visit, writes that array whole. -/
theorem flushed3_eq (c : Dev nD) (t : Fin cfg0.N) (hf : (cfg0.win 3).flush t = true) :
    (dats m 0 c).flushed 3 t = ((cfg0.win 3).blk t).view.read (Elt Ideal) (outgoingAll (edges m c) (feats m c)) := by
  have h1 : t.val % 64 = 63 := (flush0_3 t).mp hf
  obtain ⟨i0, i1⟩ := whole3 t
  rw [Cert.KernelIdeal.Value.flushed3, last_outgoing m c t h1]
  have hz' : (fun a => win0_3.index t a * main_v1_1.ty.shape.size a) = fun _ => 0 := funext fun a => by
    match a with
    | ⟨0, _⟩ => show win0_3.index t 0 * 4096 = 0; rw [i0]
    | ⟨1, _⟩ => show win0_3.index t 1 * 150 = 0; rw [i1]
  exact (Memref.read_access_unit_zero (Elt Ideal) main_v1_1 hz' (fun a => by rw [congrFun hz' a]; simp)
    (outgoingAll (edges m c) (feats m c))).symm

/-- So after the run result 1's array holds it: the last visit's block is the whole array. -/
theorem final3 (c : Dev nD) : (dats m 0 c).arrAt 3 cfg0.N = outgoingAll (edges m c) (feats m c) :=
  (dats m 0 c).arrAt_eq_of_cover 3 (outgoingAll (edges m c) (feats m c)) (flushed3_eq m c) fun i =>
    ⟨tLast, (flush0_3 tLast).mpr rfl, by
      show i ∈ ((View.whole main_v1_1).slice (win0_3.rect tLast)).set
      rw [View.set_slice_whole, Rect.mem_set_unit]
      intro a
      have h0 : (i 0 : Nat) < 4096 := (i 0).isLt
      have h1 : (i 1 : Nat) < 150 := (i 1).isLt
      match a with
      | ⟨0, _⟩ =>
        show win0_3.index tLast 0 * win0_3.size 0 ≤ (i 0 : Nat)
          ∧ (i 0 : Nat) < win0_3.index tLast 0 * win0_3.size 0 + win0_3.xsize (grid0.coords tLast) 0
        rw [show win0_3.index tLast 0 * win0_3.size 0 = 0 from by decide +kernel,
          show win0_3.xsize (grid0.coords tLast) 0 = 4096 from by decide +kernel]
        omega
      | ⟨1, _⟩ =>
        show win0_3.index tLast 1 * win0_3.size 1 ≤ (i 1 : Nat)
          ∧ (i 1 : Nat) < win0_3.index tLast 1 * win0_3.size 1 + win0_3.xsize (grid0.coords tLast) 1
        rw [show win0_3.index tLast 1 * win0_3.size 1 = 0 from by decide +kernel,
          show win0_3.xsize (grid0.coords tLast) 1 = 150 from by decide +kernel]
        omega⟩

/-- Every weakly fair execution of the program terminates with the first result at the incoming aggregates, the second
    at the outgoing aggregates, and the arguments as launched. -/
theorem run : θ_run defs (onTc (τ := τ) (main (F := Ideal))) ⟨m, fun _ => 0, ρ⟩ fun r => ∀ c : Dev nD,
      r.2.mem ((c : Thread nD τ).loc main_v1_0) = incomingAll (edges m c) (feats m c)
      ∧ r.2.mem ((c : Thread nD τ).loc main_v1_1) = outgoingAll (edges m c) (feats m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1, (h c).2.2.2⟩)
    (Cert.KernelIdeal.Value.run_blocks m ρ)

end Cert.Aggregation.Outcome

end
-- ==== Proof.Reference.lean ====
/-
  The reference computes the same two arrays.

  It first adds the two edge types of every pair, starting from zero: W (r, c) = 0 + (adj (r, c, 0) + adj (r, c, 1)), which
  is the pair's weight since zero is neutral. Its first result is the product of W transposed with the features, entry
  (c, d) = ∑ over r of W (r, c) · h (r, d): the incoming aggregate. Its second is the product of W with the features, entry
  (r, d) = ∑ over c of W (r, c) · h (c, d): the outgoing aggregate.
-/
import proofs.«125224_j58471684767747_2_alg».proof.Proof.Gen.ReferenceIdeal.Read
import proofs.«125224_j58471684767747_2_alg».proof.Proof.Results
import Idealize.ShloMosaic.PureOps.Ideal.Laws

noncomputable section

open scoped BigOperators

namespace Cert.Aggregation.Reference

open Cert.ReferenceIdeal Cert.ReferenceIdeal.Gen Cert.ReferenceIdeal.Read Idealize.ShloMosaic Idealize.ShloMosaic.ValueIdx
open Cert.Aggregation

/-- The reference's summed edge types at (r, c): the pair's weight. -/
theorem summed_types (x0 : (⟨S4096x4096x2, .f32⟩ : BufTy).Contents (Elt Ideal)) (r c : Fin 4096) :
    val_main_v0 (F := Ideal) x0 (ix2 r c) = weight x0 r c := by
  rw [val_main_v0_apply, Fin.sum_univ_two]
  have e : ∀ e : Fin 2, idx_main_v0 (ix2 r c) e = ix3 r c e := fun e => funext fun a => Fin.ext (by
    match a with | ⟨0, _⟩ => rfl | ⟨1, _⟩ => rfl | ⟨2, _⟩ => rfl)
  rw [e, e]
  show Ideal.ofBits .f32 0x00000000#32 + _ = _
  rw [Ideal.ofBits_zero_f32, zero_add]
  rfl

/-- The reference's first result is the array of incoming aggregates. -/
theorem first_result (x0 : (⟨S4096x4096x2, .f32⟩ : BufTy).Contents (Elt Ideal)) (x1 : (⟨S4096x150, .f32⟩ : BufTy).Contents (Elt Ideal)) :
    val_main_v2 (F := Ideal) x0 x1 = incomingAll x0 x1 := by
  funext i
  obtain ⟨cc, d, rfl⟩ : ∃ (cc : Fin 4096) (d : Fin 150), i = ix2 cc d := ⟨i 0, i 1, eq_ix2 i⟩
  rw [val_main_v2_apply, incomingAll_apply]
  unfold incoming
  refine Finset.sum_congr rfl fun k _ => ?_
  have e0 : idx_main_v1 (lidx_main_v2 (ix2 cc d) k) = ix2 k cc := funext fun a => Fin.ext (by
    match a with | ⟨0, _⟩ => rfl | ⟨1, _⟩ => rfl)
  have e1 : ridx_main_v2 (ix2 cc d) k = ix2 k d := funext fun a => Fin.ext (by
    match a with | ⟨0, _⟩ => rfl | ⟨1, _⟩ => rfl)
  rw [val_main_v1_apply, e0, e1, summed_types]

/-- The reference's second result is the array of outgoing aggregates. -/
theorem second_result (x0 : (⟨S4096x4096x2, .f32⟩ : BufTy).Contents (Elt Ideal)) (x1 : (⟨S4096x150, .f32⟩ : BufTy).Contents (Elt Ideal)) :
    val_main_v3 (F := Ideal) x0 x1 = outgoingAll x0 x1 := by
  funext i
  obtain ⟨r, d, rfl⟩ : ∃ (r : Fin 4096) (d : Fin 150), i = ix2 r d := ⟨i 0, i 1, eq_ix2 i⟩
  rw [val_main_v3_apply, outgoingAll_apply]
  unfold outgoing
  refine Finset.sum_congr rfl fun k _ => ?_
  have e0 : lidx_main_v3 (ix2 r d) k = ix2 r k := funext fun a => Fin.ext (by
    match a with | ⟨0, _⟩ => rfl | ⟨1, _⟩ => rfl)
  have e1 : ridx_main_v3 (ix2 r d) k = ix2 k d := funext fun a => Fin.ext (by
    match a with | ⟨0, _⟩ => rfl | ⟨1, _⟩ => rfl)
  rw [e0, e1, summed_types]

end Cert.Aggregation.Reference

end
-- ==== Proof.lean ====
/-
  Both programs compute the two neighbourhood aggregates of a weighted graph on 4096 nodes with 150 features per node.
  The weight of the ordered pair (r, c) is the sum of its two edge-type entries. The first result holds, for every node
  c and feature d, the incoming aggregate ∑ over r of weight (r, c) · h (r, d); the second holds, for every node r, the
  outgoing aggregate ∑ over c of weight (r, c) · h (c, d).

  The reference adds the two edge types (from zero), and multiplies the weight matrix, transposed and as it is, with
  the feature matrix. The kernel cuts the nodes into 8 stretches of 512 and visits the 64 pairs of stretches in
  row-major order; at each pair it adds the two edge types of the 512 × 512 tile and accumulates the tile's product
  with the column stretch's features into the rows of the outgoing aggregate, and the transposed tile's product with the
  row stretch's features into the rows of the incoming aggregate; the last visit copies both into the results. Over the
  extended reals addition is commutative and associative, so the parts a node collects over the visits add up to its
  whole sum in whatever order they arrive (Proof/Sweep.lean, over Proof/LibRunning.lean and Proof/LibBlocks.lean), zero
  is neutral, and a change of float format is the identity: the two programs end with equal results, entry by entry, for
  every input; the finiteness of the inputs is not used.
-/
import proofs.«125224_j58471684767747_2_alg».proof.Defs
import proofs.«125224_j58471684767747_2_alg».proof.Proof.Gen.Kernel
import proofs.«125224_j58471684767747_2_alg».proof.Proof.Gen.Kernel.Frame
import proofs.«125224_j58471684767747_2_alg».proof.Proof.Gen.KernelIdeal
import proofs.«125224_j58471684767747_2_alg».proof.Proof.Gen.KernelIdeal.Frame
import proofs.«125224_j58471684767747_2_alg».proof.Proof.Gen.KernelIdeal.Value
import proofs.«125224_j58471684767747_2_alg».proof.Proof.Gen.ReferenceIdeal
import proofs.«125224_j58471684767747_2_alg».proof.Proof.Gen.ReferenceIdeal.Run
import proofs.«125224_j58471684767747_2_alg».proof.Proof.Gen.ReferenceIdeal.Read
import proofs.«125224_j58471684767747_2_alg».proof.Proof.Gen.Pre_finite_inputs
import proofs.«125224_j58471684767747_2_alg».proof.Proof.Outcome
import proofs.«125224_j58471684767747_2_alg».proof.Proof.Reference

noncomputable section

namespace Cert.Proof

open Idealize.ShloMosaic Idealize.SL.Sem Cert.Aggregation

/-- The kernel as printed runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments unchanged: its run with the results dropped. -/
theorem frame_reference : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The idealization rewrote nothing. -/
theorem preserves : Cert.preserves_Kernel_KernelIdeal := trivial

/-- From memories that agree on the arguments, the kernel ends with the incoming and the outgoing aggregates of its
    arguments in its two results, and the reference with the same two arrays of its own. -/
theorem algebraic : Cert.algebraic_KernelIdeal_ReferenceIdeal := by
  intro m ρ m' ρ' _ hagree
  refine ⟨fun c => incomingAll (Sweep.edges m c) (Sweep.feats m c), fun c => outgoingAll (Sweep.edges m c) (Sweep.feats m c),
    Outcome.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v2_eq, Reference.first_result, (hagree c).1, (hagree c).2]
  · rw [(h c).2.1, Cert.ReferenceIdeal.Read.val_main_v3_eq, Reference.second_result, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
